-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x1 : Shape := ⟨2, ![4000000, 1]⟩
abbrev S1x10 : Shape := ⟨2, ![1, 10]⟩
abbrev S10 : Shape := ⟨1, ![10]⟩
abbrev S10x10 : Shape := ⟨2, ![10, 10]⟩
abbrev S1 : Shape := ⟨1, ![1]⟩
abbrev S10x1 : Shape := ⟨2, ![10, 1]⟩
abbrev S_ : Shape := ⟨0, ![]⟩

class Facts : Prop where
  bcast_S_S4000000x1 : S_.BroadcastsInDim S4000000x1 (![] : Fin 0 → Fin S4000000x1.rank)
  reducesTo_S4000000x1_S_d0_1 : S4000000x1.ReducesTo [0, 1] S_
  h_S_ : 0 < S_.numel
  bcast_S_S1x10 : S_.BroadcastsInDim S1x10 (![] : Fin 0 → Fin S1x10.rank)
  reducesTo_S1x10_S_d0_1 : S1x10.ReducesTo [0, 1] S_
  bcast_S_S10 : S_.BroadcastsInDim S10 (![] : Fin 0 → Fin S10.rank)
  reducesTo_S10_S_d0 : S10.ReducesTo [0] S_
  bcast_S_S10x10 : S_.BroadcastsInDim S10x10 (![] : Fin 0 → Fin S10x10.rank)
  reducesTo_S10x10_S_d0_1 : S10x10.ReducesTo [0, 1] S_
  bcast_S_S1 : S_.BroadcastsInDim S1 (![] : Fin 0 → Fin S1.rank)
  reducesTo_S1_S_d0 : S1.ReducesTo [0] S_
  bcast_S_S10x1 : S_.BroadcastsInDim S10x1 (![] : Fin 0 → Fin S10x1.rank)
  reducesTo_S10x1_S_d0_1 : S10x1.ReducesTo [0, 1] S_

variable [Facts]

def fn_part5 {F : FTy → Type} [FloatOps F] (main_arg18 : FVec F S10x1 .f32) (main_arg19 : FVec F S1 .f32) (main_v83 : IVec S_ 1) (main_v84 : FVec F S1 .f32) (main_cst_32 : FVec F S_ .f32) : IVec S_ 1 :=
  let main_v85 : FVec F S1 .f32 := broadcastInDim S1 ![] bcast_S_S1 main_cst_32
  let main_v86 : IVec S1 1 := cmpf .olt main_v84 main_v85
  let main_c_33 : IVec S_ 1 := constantI S_ 1 1#1
  let main_v87 : IVec S_ 1 := (fun x v => Host.reduce IntOp.andi x v reducesTo_S1_S_d0 h_S_) main_v86 main_c_33
  let main_v88 : IVec S_ 1 := andi main_v83 main_v87
  let main_v89 : FVec F S10x1 .f32 := Host.absf main_arg18
  let main_cst_34 : FVec F S_ .f32 := constant S_ .f32 0x7F800000#32
  let main_v90 : FVec F S10x1 .f32 := broadcastInDim S10x1 ![] bcast_S_S10x1 main_cst_34
  let main_v91 : IVec S10x1 1 := cmpf .olt main_v89 main_v90
  let main_c_35 : IVec S_ 1 := constantI S_ 1 1#1
  let main_v92 : IVec S_ 1 := (fun x v => Host.reduce IntOp.andi x v reducesTo_S10x1_S_d0_1 h_S_) main_v91 main_c_35
  let main_v93 : IVec S_ 1 := andi main_v88 main_v92
  let main_v94 : FVec F S1 .f32 := Host.absf main_arg19
  let main_cst_36 : FVec F S_ .f32 := constant S_ .f32 0x7F800000#32
  let main_v95 : FVec F S1 .f32 := broadcastInDim S1 ![] bcast_S_S1 main_cst_36
  let main_v96 : IVec S1 1 := cmpf .olt main_v94 main_v95
  let main_c_37 : IVec S_ 1 := constantI S_ 1 1#1
  let main_v97 : IVec S_ 1 := (fun x v => Host.reduce IntOp.andi x v reducesTo_S1_S_d0 h_S_) main_v96 main_c_37
  let main_v98 : IVec S_ 1 := andi main_v93 main_v97
  main_v98

def fn_part4 {F : FTy → Type} [FloatOps F] (main_arg14 : FVec F S10 .f32) (main_arg15 : FVec F S10x10 .f32) (main_arg16 : FVec F S10 .f32) (main_arg17 : FVec F S1 .f32) (main_arg18 : FVec F S10x1 .f32) (main_arg19 : FVec F S1 .f32) (main_v63 : IVec S_ 1) (main_v67 : IVec S_ 1) : IVec S_ 1 :=
  let main_v68 : IVec S_ 1 := andi main_v63 main_v67
  let main_v69 : FVec F S10 .f32 := Host.absf main_arg14
  let main_cst_26 : FVec F S_ .f32 := constant S_ .f32 0x7F800000#32
  let main_v70 : FVec F S10 .f32 := broadcastInDim S10 ![] bcast_S_S10 main_cst_26
  let main_v71 : IVec S10 1 := cmpf .olt main_v69 main_v70
  let main_c_27 : IVec S_ 1 := constantI S_ 1 1#1
  let main_v72 : IVec S_ 1 := (fun x v => Host.reduce IntOp.andi x v reducesTo_S10_S_d0 h_S_) main_v71 main_c_27
  let main_v73 : IVec S_ 1 := andi main_v68 main_v72
  let main_v74 : FVec F S10x10 .f32 := Host.absf main_arg15
  let main_cst_28 : FVec F S_ .f32 := constant S_ .f32 0x7F800000#32
  let main_v75 : FVec F S10x10 .f32 := broadcastInDim S10x10 ![] bcast_S_S10x10 main_cst_28
  let main_v76 : IVec S10x10 1 := cmpf .olt main_v74 main_v75
  let main_c_29 : IVec S_ 1 := constantI S_ 1 1#1
  let main_v77 : IVec S_ 1 := (fun x v => Host.reduce IntOp.andi x v reducesTo_S10x10_S_d0_1 h_S_) main_v76 main_c_29
  let main_v78 : IVec S_ 1 := andi main_v73 main_v77
  let main_v79 : FVec F S10 .f32 := Host.absf main_arg16
  let main_cst_30 : FVec F S_ .f32 := constant S_ .f32 0x7F800000#32
  let main_v80 : FVec F S10 .f32 := broadcastInDim S10 ![] bcast_S_S10 main_cst_30
  let main_v81 : IVec S10 1 := cmpf .olt main_v79 main_v80
  let main_c_31 : IVec S_ 1 := constantI S_ 1 1#1
  let main_v82 : IVec S_ 1 := (fun x v => Host.reduce IntOp.andi x v reducesTo_S10_S_d0 h_S_) main_v81 main_c_31
  let main_v83 : IVec S_ 1 := andi main_v78 main_v82
  let main_v84 : FVec F S1 .f32 := Host.absf main_arg17
  let main_cst_32 : FVec F S_ .f32 := constant S_ .f32 0x7F800000#32
  fn_part5 (F := F) main_arg18 main_arg19 main_v83 main_v84 main_cst_32

def fn_part3 {F : FTy → Type} [FloatOps F] (main_arg11 : FVec F S10x10 .f32) (main_arg12 : FVec F S10 .f32) (main_arg13 : FVec F S10x10 .f32) (main_arg14 : FVec F S10 .f32) (main_arg15 : FVec F S10x10 .f32) (main_arg16 : FVec F S10 .f32) (main_arg17 : FVec F S1 .f32) (main_arg18 : FVec F S10x1 .f32) (main_arg19 : FVec F S1 .f32) (main_v48 : IVec S_ 1) (main_v49 : FVec F S10 .f32) (main_v50 : FVec F S10 .f32) : IVec S_ 1 :=
  let main_v51 : IVec S10 1 := cmpf .olt main_v49 main_v50
  let main_c_19 : IVec S_ 1 := constantI S_ 1 1#1
  let main_v52 : IVec S_ 1 := (fun x v => Host.reduce IntOp.andi x v reducesTo_S10_S_d0 h_S_) main_v51 main_c_19
  let main_v53 : IVec S_ 1 := andi main_v48 main_v52
  let main_v54 : FVec F S10x10 .f32 := Host.absf main_arg11
  let main_cst_20 : FVec F S_ .f32 := constant S_ .f32 0x7F800000#32
  let main_v55 : FVec F S10x10 .f32 := broadcastInDim S10x10 ![] bcast_S_S10x10 main_cst_20
  let main_v56 : IVec S10x10 1 := cmpf .olt main_v54 main_v55
  let main_c_21 : IVec S_ 1 := constantI S_ 1 1#1
  let main_v57 : IVec S_ 1 := (fun x v => Host.reduce IntOp.andi x v reducesTo_S10x10_S_d0_1 h_S_) main_v56 main_c_21
  let main_v58 : IVec S_ 1 := andi main_v53 main_v57
  let main_v59 : FVec F S10 .f32 := Host.absf main_arg12
  let main_cst_22 : FVec F S_ .f32 := constant S_ .f32 0x7F800000#32
  let main_v60 : FVec F S10 .f32 := broadcastInDim S10 ![] bcast_S_S10 main_cst_22
  let main_v61 : IVec S10 1 := cmpf .olt main_v59 main_v60
  let main_c_23 : IVec S_ 1 := constantI S_ 1 1#1
  let main_v62 : IVec S_ 1 := (fun x v => Host.reduce IntOp.andi x v reducesTo_S10_S_d0 h_S_) main_v61 main_c_23
  let main_v63 : IVec S_ 1 := andi main_v58 main_v62
  let main_v64 : FVec F S10x10 .f32 := Host.absf main_arg13
  let main_cst_24 : FVec F S_ .f32 := constant S_ .f32 0x7F800000#32
  let main_v65 : FVec F S10x10 .f32 := broadcastInDim S10x10 ![] bcast_S_S10x10 main_cst_24
  let main_v66 : IVec S10x10 1 := cmpf .olt main_v64 main_v65
  let main_c_25 : IVec S_ 1 := constantI S_ 1 1#1
  let main_v67 : IVec S_ 1 := (fun x v => Host.reduce IntOp.andi x v reducesTo_S10x10_S_d0_1 h_S_) main_v66 main_c_25
  fn_part4 (F := F) main_arg14 main_arg15 main_arg16 main_arg17 main_arg18 main_arg19 main_v63 main_v67

def fn_part2 {F : FTy → Type} [FloatOps F] (main_arg7 : FVec F S10x10 .f32) (main_arg8 : FVec F S10 .f32) (main_arg9 : FVec F S10x10 .f32) (main_arg10 : FVec F S10 .f32) (main_arg11 : FVec F S10x10 .f32) (main_arg12 : FVec F S10 .f32) (main_arg13 : FVec F S10x10 .f32) (main_arg14 : FVec F S10 .f32) (main_arg15 : FVec F S10x10 .f32) (main_arg16 : FVec F S10 .f32) (main_arg17 : FVec F S1 .f32) (main_arg18 : FVec F S10x1 .f32) (main_arg19 : FVec F S1 .f32) (main_v33 : IVec S_ 1) : IVec S_ 1 :=
  let main_v34 : FVec F S10x10 .f32 := Host.absf main_arg7
  let main_cst_12 : FVec F S_ .f32 := constant S_ .f32 0x7F800000#32
  let main_v35 : FVec F S10x10 .f32 := broadcastInDim S10x10 ![] bcast_S_S10x10 main_cst_12
  let main_v36 : IVec S10x10 1 := cmpf .olt main_v34 main_v35
  let main_c_13 : IVec S_ 1 := constantI S_ 1 1#1
  let main_v37 : IVec S_ 1 := (fun x v => Host.reduce IntOp.andi x v reducesTo_S10x10_S_d0_1 h_S_) main_v36 main_c_13
  let main_v38 : IVec S_ 1 := andi main_v33 main_v37
  let main_v39 : FVec F S10 .f32 := Host.absf main_arg8
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  let main_v44 : FVec F S10x10 .f32 := Host.absf main_arg9
  let main_cst_16 : FVec F S_ .f32 := constant S_ .f32 0x7F800000#32
  let main_v45 : FVec F S10x10 .f32 := broadcastInDim S10x10 ![] bcast_S_S10x10 main_cst_16
  let main_v46 : IVec S10x10 1 := cmpf .olt main_v44 main_v45
  let main_c_17 : IVec S_ 1 := constantI S_ 1 1#1
  let main_v47 : IVec S_ 1 := (fun x v => Host.reduce IntOp.andi x v reducesTo_S10x10_S_d0_1 h_S_) main_v46 main_c_17
  let main_v48 : IVec S_ 1 := andi main_v43 main_v47
  let main_v49 : FVec F S10 .f32 := Host.absf main_arg10
  let main_cst_18 : FVec F S_ .f32 := constant S_ .f32 0x7F800000#32
  let main_v50 : FVec F S10 .f32 := broadcastInDim S10 ![] bcast_S_S10 main_cst_18
  fn_part3 (F := F) main_arg11 main_arg12 main_arg13 main_arg14 main_arg15 main_arg16 main_arg17 main_arg18 main_arg19 main_v48 main_v49 main_v50

def fn_part1 {F : FTy → Type} [FloatOps F] (main_arg4 : FVec F S10 .f32) (main_arg5 : FVec F S10x10 .f32) (main_arg6 : FVec F S10 .f32) (main_arg7 : FVec F S10x10 .f32) (main_arg8 : FVec F S10 .f32) (main_arg9 : FVec F S10x10 .f32) (main_arg10 : FVec F S10 .f32) (main_arg11 : FVec F S10x10 .f32) (main_arg12 : FVec F S10 .f32) (main_arg13 : FVec F S10x10 .f32) (main_arg14 : FVec F S10 .f32) (main_arg15 : FVec F S10x10 .f32) (main_arg16 : FVec F S10 .f32) (main_arg17 : FVec F S1 .f32) (main_arg18 : FVec F S10x1 .f32) (main_arg19 : FVec F S1 .f32) (main_v13 : IVec S_ 1) (main_v16 : IVec S1x10 1) : IVec S_ 1 :=
  let main_c_5 : IVec S_ 1 := constantI S_ 1 1#1
  let main_v17 : IVec S_ 1 := (fun x v => Host.reduce IntOp.andi x v reducesTo_S1x10_S_d0_1 h_S_) main_v16 main_c_5
  let main_v18 : IVec S_ 1 := andi main_v13 main_v17
  let main_v19 : FVec F S10 .f32 := Host.absf main_arg4
  let main_cst_6 : FVec F S_ .f32 := constant S_ .f32 0x7F800000#32
  let main_v20 : FVec F S10 .f32 := broadcastInDim S10 ![] bcast_S_S10 main_cst_6
  let main_v21 : IVec S10 1 := cmpf .olt main_v19 main_v20
  let main_c_7 : IVec S_ 1 := constantI S_ 1 1#1
  let main_v22 : IVec S_ 1 := (fun x v => Host.reduce IntOp.andi x v reducesTo_S10_S_d0 h_S_) main_v21 main_c_7
  let main_v23 : IVec S_ 1 := andi main_v18 main_v22
  let main_v24 : FVec F S10x10 .f32 := Host.absf main_arg5
  let main_cst_8 : FVec F S_ .f32 := constant S_ .f32 0x7F800000#32
  let main_v25 : FVec F S10x10 .f32 := broadcastInDim S10x10 ![] bcast_S_S10x10 main_cst_8
  let main_v26 : IVec S10x10 1 := cmpf .olt main_v24 main_v25
  let main_c_9 : IVec S_ 1 := constantI S_ 1 1#1
  let main_v27 : IVec S_ 1 := (fun x v => Host.reduce IntOp.andi x v reducesTo_S10x10_S_d0_1 h_S_) main_v26 main_c_9
  let main_v28 : IVec S_ 1 := andi main_v23 main_v27
  let main_v29 : FVec F S10 .f32 := Host.absf main_arg6
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_v33

def fn {F : FTy → Type} [FloatOps F] (main_arg0 : FVec F S4000000x1 .f32) (main_arg1 : FVec F S4000000x1 .f32) (main_arg2 : FVec F S1x10 .f32) (main_arg3 : FVec F S1x10 .f32) (main_arg4 : FVec F S10 .f32) (main_arg5 : FVec F S10x10 .f32) (main_arg6 : FVec F S10 .f32) (main_arg7 : FVec F S10x10 .f32) (main_arg8 : FVec F S10 .f32) (main_arg9 : FVec F S10x10 .f32) (main_arg10 : FVec F S10 .f32) (main_arg11 : FVec F S10x10 .f32) (main_arg12 : FVec F S10 .f32) (main_arg13 : FVec F S10x10 .f32) (main_arg14 : FVec F S10 .f32) (main_arg15 : FVec F S10x10 .f32) (main_arg16 : FVec F S10 .f32) (main_arg17 : FVec F S1 .f32) (main_arg18 : FVec F S10x1 .f32) (main_arg19 : FVec F S1 .f32) : IVec S_ 1 :=
  let main_v0 : FVec F S4000000x1 .f32 := Host.absf main_arg0
  let main_cst : FVec F S_ .f32 := constant S_ .f32 0x7F800000#32
  let main_v1 : FVec F S4000000x1 .f32 := broadcastInDim S4000000x1 ![] bcast_S_S4000000x1 main_cst
  let main_v2 : IVec S4000000x1 1 := cmpf .olt main_v0 main_v1
  let main_c : IVec S_ 1 := constantI S_ 1 1#1
  let main_v3 : IVec S_ 1 := (fun x v => Host.reduce IntOp.andi x v reducesTo_S4000000x1_S_d0_1 h_S_) main_v2 main_c
  let main_v4 : FVec F S4000000x1 .f32 := Host.absf main_arg1
  let main_cst_0 : FVec F S_ .f32 := constant S_ .f32 0x7F800000#32
  let main_v5 : FVec F S4000000x1 .f32 := broadcastInDim S4000000x1 ![] bcast_S_S4000000x1 main_cst_0
  let main_v6 : IVec S4000000x1 1 := cmpf .olt main_v4 main_v5
  let main_c_1 : IVec S_ 1 := constantI S_ 1 1#1
  let main_v7 : IVec S_ 1 := (fun x v => Host.reduce IntOp.andi x v reducesTo_S4000000x1_S_d0_1 h_S_) main_v6 main_c_1
  let main_v8 : IVec S_ 1 := andi main_v3 main_v7
  let main_v9 : FVec F S1x10 .f32 := Host.absf main_arg2
  let main_cst_2 : FVec F S_ .f32 := constant S_ .f32 0x7F800000#32
  let main_v10 : FVec F S1x10 .f32 := broadcastInDim S1x10 ![] bcast_S_S1x10 main_cst_2
  let main_v11 : IVec S1x10 1 := cmpf .olt main_v9 main_v10
  let main_c_3 : IVec S_ 1 := constantI S_ 1 1#1
  let main_v12 : IVec S_ 1 := (fun x v => Host.reduce IntOp.andi x v reducesTo_S1x10_S_d0_1 h_S_) main_v11 main_c_3
  let main_v13 : IVec S_ 1 := andi main_v8 main_v12
  let main_v14 : FVec F S1x10 .f32 := Host.absf main_arg3
  let main_cst_4 : FVec F S_ .f32 := constant S_ .f32 0x7F800000#32
  let main_v15 : FVec F S1x10 .f32 := broadcastInDim S1x10 ![] bcast_S_S1x10 main_cst_4
  let main_v16 : IVec S1x10 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_v13 main_v16
-- ==== Kernel.lean ====
abbrev S4000000x1 : Shape := ⟨2, ![4000000, 1]⟩
abbrev S1x10 : Shape := ⟨2, ![1, 10]⟩
abbrev S10 : Shape := ⟨1, ![10]⟩
abbrev S10x10 : Shape := ⟨2, ![10, 10]⟩
abbrev S1 : Shape := ⟨1, ![1]⟩
abbrev S10x1 : Shape := ⟨2, ![10, 1]⟩
abbrev S4000000 : Shape := ⟨1, ![4000000]⟩
abbrev S50x25x3200 : Shape := ⟨3, ![50, 25, 3200]⟩
abbrev S25x25 : Shape := ⟨2, ![25, 25]⟩
abbrev S_ : Shape := ⟨0, ![]⟩
abbrev S25x1x25x1 : Shape := ⟨4, ![25, 1, 25, 1]⟩
abbrev S1x10x1x1 : Shape := ⟨4, ![1, 10, 1, 1]⟩
abbrev S25x10x25x1 : Shape := ⟨4, ![25, 10, 25, 1]⟩
abbrev S250x25 : Shape := ⟨2, ![250, 25]⟩
abbrev S25x10x1x1 : Shape := ⟨4, ![25, 10, 1, 1]⟩
abbrev S250x1 : Shape := ⟨2, ![250, 1]⟩
abbrev S1x10x1x10 : Shape := ⟨4, ![1, 10, 1, 10]⟩
abbrev S25x10x25x10 : Shape := ⟨4, ![25, 10, 25, 10]⟩
abbrev S250x250 : Shape := ⟨2, ![250, 250]⟩
abbrev S1x1x1x10 : Shape := ⟨4, ![1, 1, 1, 10]⟩
abbrev S25x1x25x10 : Shape := ⟨4, ![25, 1, 25, 10]⟩
abbrev S25x250 : Shape := ⟨2, ![25, 250]⟩
abbrev S1x1 : Shape := ⟨2, ![1, 1]⟩
abbrev S1x1x1x1 : Shape := ⟨4, ![1, 1, 1, 1]⟩
abbrev S25x1x1x1 : Shape := ⟨4, ![25, 1, 1, 1]⟩
abbrev S25x1 : Shape := ⟨2, ![25, 1]⟩
abbrev S1x25x3200 : Shape := ⟨3, ![1, 25, 3200]⟩
abbrev S25x3200 : Shape := ⟨2, ![25, 3200]⟩
abbrev S250x3200 : Shape := ⟨2, ![250, 3200]⟩

abbrev nBuf : Space → Nat
  | .hbm => 138
  | .vmem => 24
  | .smem => 0
  | _ => 0

abbrev hbmTy0_0 (i : Nat) : BufTy := match i % 128 with
  | 0 => ⟨S4000000x1, .f32⟩
  | 1 => ⟨S4000000x1, .f32⟩
  | 2 => ⟨S1x10, .f32⟩
  | 3 => ⟨S1x10, .f32⟩
  | 4 => ⟨S10, .f32⟩
  | 5 => ⟨S10x10, .f32⟩
  | 6 => ⟨S10, .f32⟩
  | 7 => ⟨S10x10, .f32⟩
  | 8 => ⟨S10, .f32⟩
  | 9 => ⟨S10x10, .f32⟩
  | 10 => ⟨S10, .f32⟩
  | 11 => ⟨S10x10, .f32⟩
  | 12 => ⟨S10, .f32⟩
  | 13 => ⟨S10x10, .f32⟩
  | 14 => ⟨S10, .f32⟩
  | 15 => ⟨S10x10, .f32⟩
  | 16 => ⟨S10, .f32⟩
  | 17 => ⟨S1, .f32⟩
  | 18 => ⟨S10x1, .f32⟩
  | 19 => ⟨S1, .f32⟩
  | 20 => ⟨S4000000, .f32⟩
  | 21 => ⟨S50x25x3200, .f32⟩
  | 22 => ⟨S4000000, .f32⟩
  | 23 => ⟨S50x25x3200, .f32⟩
  | 24 => ⟨S25x25, .i32⟩
  | 25 => ⟨S25x25, .i32⟩
  | 26 => ⟨S_, .i32⟩
  | 27 => ⟨S25x25, .i32⟩
  | 28 => ⟨S25x25, .i32⟩
  | 29 => ⟨S25x25, .i1⟩
  | 30 => ⟨S25x25, .f32⟩
  | 31 => ⟨S10x1, .f32⟩
  | 32 => ⟨S25x1x25x1, .f32⟩
  | 33 => ⟨S1x10x1x1, .f32⟩
  | 34 => ⟨S25x10x25x1, .f32⟩
  | 35 => ⟨S25x10x25x1, .f32⟩
  | 36 => ⟨S25x10x25x1, .f32⟩
  | 37 => ⟨S250x25, .f32⟩
  | 38 => ⟨S250x25, .bf16⟩
  | 39 => ⟨S10x1, .f32⟩
  | 40 => ⟨S25x1x25x1, .f32⟩
  | 41 => ⟨S1x10x1x1, .f32⟩
  | 42 => ⟨S25x10x25x1, .f32⟩
  | 43 => ⟨S25x10x25x1, .f32⟩
  | 44 => ⟨S25x10x25x1, .f32⟩
  | 45 => ⟨S250x25, .f32⟩
  | 46 => ⟨S250x25, .bf16⟩
  | 47 => ⟨S10x1, .f32⟩
  | 48 => ⟨S1x10x1x1, .f32⟩
  | 49 => ⟨S25x10x1x1, .f32⟩
  | 50 => ⟨S250x1, .f32⟩
  | 51 => ⟨S10x10, .f32⟩
  | 52 => ⟨S25x1x25x1, .f32⟩
  | 53 => ⟨S1x10x1x10, .f32⟩
  | 54 => ⟨S25x10x25x10, .f32⟩
  | 55 => ⟨S25x10x25x10, .f32⟩
  | 56 => ⟨S25x10x25x10, .f32⟩
  | 57 => ⟨S250x250, .f32⟩
  | 58 => ⟨S250x250, .bf16⟩
  | 59 => ⟨S10x1, .f32⟩
  | 60 => ⟨S1x10x1x1, .f32⟩
  | 61 => ⟨S25x10x1x1, .f32⟩
  | 62 => ⟨S250x1, .f32⟩
  | 63 => ⟨S10x10, .f32⟩
  | 64 => ⟨S25x1x25x1, .f32⟩
  | 65 => ⟨S1x10x1x10, .f32⟩
  | 66 => ⟨S25x10x25x10, .f32⟩
  | 67 => ⟨S25x10x25x10, .f32⟩
  | 68 => ⟨S25x10x25x10, .f32⟩
  | 69 => ⟨S250x250, .f32⟩
  | 70 => ⟨S250x250, .bf16⟩
  | 71 => ⟨S10x1, .f32⟩
  | 72 => ⟨S1x10x1x1, .f32⟩
  | 73 => ⟨S25x10x1x1, .f32⟩
  | 74 => ⟨S250x1, .f32⟩
  | 75 => ⟨S10x10, .f32⟩
  | 76 => ⟨S25x1x25x1, .f32⟩
  | 77 => ⟨S1x10x1x10, .f32⟩
  | 78 => ⟨S25x10x25x10, .f32⟩
  | 79 => ⟨S25x10x25x10, .f32⟩
  | 80 => ⟨S25x10x25x10, .f32⟩
  | 81 => ⟨S250x250, .f32⟩
  | 82 => ⟨S250x250, .bf16⟩
  | 83 => ⟨S10x1, .f32⟩
  | 84 => ⟨S1x10x1x1, .f32⟩
  | 85 => ⟨S25x10x1x1, .f32⟩
  | 86 => ⟨S250x1, .f32⟩
  | 87 => ⟨S10x10, .f32⟩
  | 88 => ⟨S25x1x25x1, .f32⟩
  | 89 => ⟨S1x10x1x10, .f32⟩
  | 90 => ⟨S25x10x25x10, .f32⟩
  | 91 => ⟨S25x10x25x10, .f32⟩
  | 92 => ⟨S25x10x25x10, .f32⟩
  | 93 => ⟨S250x250, .f32⟩
  | 94 => ⟨S250x250, .bf16⟩
  | 95 => ⟨S10x1, .f32⟩
  | 96 => ⟨S1x10x1x1, .f32⟩
  | 97 => ⟨S25x10x1x1, .f32⟩
  | 98 => ⟨S250x1, .f32⟩
  | 99 => ⟨S10x10, .f32⟩
  | 100 => ⟨S25x1x25x1, .f32⟩
  | 101 => ⟨S1x10x1x10, .f32⟩
  | 102 => ⟨S25x10x25x10, .f32⟩
  | 103 => ⟨S25x10x25x10, .f32⟩
  | 104 => ⟨S25x10x25x10, .f32⟩
  | 105 => ⟨S250x250, .f32⟩
  | 106 => ⟨S250x250, .bf16⟩
  | 107 => ⟨S10x1, .f32⟩
  | 108 => ⟨S1x10x1x1, .f32⟩
  | 109 => ⟨S25x10x1x1, .f32⟩
  | 110 => ⟨S250x1, .f32⟩
  | 111 => ⟨S10x10, .f32⟩
  | 112 => ⟨S25x1x25x1, .f32⟩
  | 113 => ⟨S1x10x1x10, .f32⟩
  | 114 => ⟨S25x10x25x10, .f32⟩
  | 115 => ⟨S25x10x25x10, .f32⟩
  | 116 => ⟨S25x10x25x10, .f32⟩
  | 117 => ⟨S250x250, .f32⟩
  | 118 => ⟨S250x250, .bf16⟩
  | 119 => ⟨S10x1, .f32⟩
  | 120 => ⟨S1x10x1x1, .f32⟩
  | 121 => ⟨S25x10x1x1, .f32⟩
  | 122 => ⟨S250x1, .f32⟩
  | 123 => ⟨S1x10, .f32⟩
  | 124 => ⟨S25x1x25x1, .f32⟩
  | 125 => ⟨S1x1x1x10, .f32⟩
  | 126 => ⟨S25x1x25x10, .f32⟩
  | 127 => ⟨S25x1x25x10, .f32⟩
  | _ => ⟨S4000000x1, .f32⟩

abbrev hbmTy0_1 (i : Nat) : BufTy := match i % 128 with
  | 0 => ⟨S25x1x25x10, .f32⟩
  | 1 => ⟨S25x250, .f32⟩
  | 2 => ⟨S25x250, .bf16⟩
  | 3 => ⟨S1x1, .f32⟩
  | 4 => ⟨S1x1x1x1, .f32⟩
  | 5 => ⟨S25x1x1x1, .f32⟩
  | 6 => ⟨S25x1, .f32⟩
  | 7 => ⟨S1x1, .f32⟩
  | 8 => ⟨S50x25x3200, .f32⟩
  | 9 => ⟨S4000000x1, .f32⟩
  | _ => ⟨S4000000x1, .f32⟩

abbrev hbmTy (i : Nat) : BufTy := match i / 128 with
  | 0 => hbmTy0_0 i
  | 1 => hbmTy0_1 i
  | _ => ⟨S4000000x1, .f32⟩

abbrev bufTy : (tb : Table) → Fin (tcTables nBuf tb) → BufTy
  | .hbm, ⟨i, _⟩ => hbmTy i
  | .local _ .vmem, ⟨0, _⟩ => ⟨S1x25x3200, .f32⟩
  | .local _ .vmem, ⟨1, _⟩ => ⟨S1x25x3200, .f32⟩
  | .local _ .vmem, ⟨2, _⟩ => ⟨S1x25x3200, .f32⟩
  | .local _ .vmem, ⟨3, _⟩ => ⟨S1x25x3200, .f32⟩
  | .local _ .vmem, ⟨4, _⟩ => ⟨S250x25, .bf16⟩
  | .local _ .vmem, ⟨5, _⟩ => ⟨S250x25, .bf16⟩
  | .local _ .vmem, ⟨6, _⟩ => ⟨S250x1, .f32⟩
  | .local _ .vmem, ⟨7, _⟩ => ⟨S250x250, .bf16⟩
  | .local _ .vmem, ⟨8, _⟩ => ⟨S250x1, .f32⟩
  | .local _ .vmem, ⟨9, _⟩ => ⟨S250x250, .bf16⟩
  | .local _ .vmem, ⟨10, _⟩ => ⟨S250x1, .f32⟩
  | .local _ .vmem, ⟨11, _⟩ => ⟨S250x250, .bf16⟩
  | .local _ .vmem, ⟨12, _⟩ => ⟨S250x1, .f32⟩
  | .local _ .vmem, ⟨13, _⟩ => ⟨S250x250, .bf16⟩
  | .local _ .vmem, ⟨14, _⟩ => ⟨S250x1, .f32⟩
  | .local _ .vmem, ⟨15, _⟩ => ⟨S250x250, .bf16⟩
  | .local _ .vmem, ⟨16, _⟩ => ⟨S250x1, .f32⟩
  | .local _ .vmem, ⟨17, _⟩ => ⟨S250x250, .bf16⟩
  | .local _ .vmem, ⟨18, _⟩ => ⟨S250x1, .f32⟩
  | .local _ .vmem, ⟨19, _⟩ => ⟨S1x1, .f32⟩
  | .local _ .vmem, ⟨20, _⟩ => ⟨S25x250, .bf16⟩
  | .local _ .vmem, ⟨21, _⟩ => ⟨S25x1, .f32⟩
  | .local _ .vmem, ⟨22, _⟩ => ⟨S1x25x3200, .f32⟩
  | .local _ .vmem, ⟨23, _⟩ => ⟨S1x25x3200, .f32⟩
  | _, _ => ⟨S4000000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_c : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_call3_v0 : Ref sig .tc := ⟨.hbm, 64, rfl⟩
abbrev main_call3_v1 : Ref sig .tc := ⟨.hbm, 65, rfl⟩
abbrev main_call3_v2 : Ref sig .tc := ⟨.hbm, 66, rfl⟩
abbrev main_call3_v3 : Ref sig .tc := ⟨.hbm, 67, rfl⟩
abbrev main_call3_v4 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_call4_v0 : Ref sig .tc := ⟨.hbm, 76, rfl⟩
abbrev main_call4_v1 : Ref sig .tc := ⟨.hbm, 77, rfl⟩
abbrev main_call4_v2 : Ref sig .tc := ⟨.hbm, 78, rfl⟩
abbrev main_call4_v3 : Ref sig .tc := ⟨.hbm, 79, rfl⟩
abbrev main_call4_v4 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_call5_v0 : Ref sig .tc := ⟨.hbm, 88, rfl⟩
abbrev main_call5_v1 : Ref sig .tc := ⟨.hbm, 89, rfl⟩
abbrev main_call5_v2 : Ref sig .tc := ⟨.hbm, 90, rfl⟩
abbrev main_call5_v3 : Ref sig .tc := ⟨.hbm, 91, rfl⟩
abbrev main_call5_v4 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_call6_v0 : Ref sig .tc := ⟨.hbm, 100, rfl⟩
abbrev main_call6_v1 : Ref sig .tc := ⟨.hbm, 101, rfl⟩
abbrev main_call6_v2 : Ref sig .tc := ⟨.hbm, 102, rfl⟩
abbrev main_call6_v3 : Ref sig .tc := ⟨.hbm, 103, rfl⟩
abbrev main_call6_v4 : Ref sig .tc := ⟨.hbm, 104, rfl⟩
abbrev main_v49 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩
abbrev main_call7_v0 : Ref sig .tc := ⟨.hbm, 112, rfl⟩
abbrev main_call7_v1 : Ref sig .tc := ⟨.hbm, 113, rfl⟩
abbrev main_call7_v2 : Ref sig .tc := ⟨.hbm, 114, rfl⟩
abbrev main_call7_v3 : Ref sig .tc := ⟨.hbm, 115, rfl⟩
abbrev main_call7_v4 : Ref sig .tc := ⟨.hbm, 116, rfl⟩
abbrev main_v56 : Ref sig .tc := ⟨.hbm, 117, rfl⟩
abbrev main_v57 : Ref sig .tc := ⟨.hbm, 118, rfl⟩
abbrev main_v58 : Ref sig .tc := ⟨.hbm, 119, rfl⟩
abbrev main_v59 : Ref sig .tc := ⟨.hbm, 120, rfl⟩
abbrev main_v60 : Ref sig .tc := ⟨.hbm, 121, rfl⟩
abbrev main_v61 : Ref sig .tc := ⟨.hbm, 122, rfl⟩
abbrev main_v62 : Ref sig .tc := ⟨.hbm, 123, rfl⟩
abbrev main_call8_v0 : Ref sig .tc := ⟨.hbm, 124, rfl⟩
abbrev main_call8_v1 : Ref sig .tc := ⟨.hbm, 125, rfl⟩
abbrev main_call8_v2 : Ref sig .tc := ⟨.hbm, 126, rfl⟩
abbrev main_call8_v3 : Ref sig .tc := ⟨.hbm, 127, rfl⟩
abbrev main_call8_v4 : Ref sig .tc := ⟨.hbm, 128, rfl⟩
abbrev main_v63 : Ref sig .tc := ⟨.hbm, 129, rfl⟩
abbrev main_v64 : Ref sig .tc := ⟨.hbm, 130, rfl⟩
abbrev main_v65 : Ref sig .tc := ⟨.hbm, 131, rfl⟩
abbrev main_v66 : Ref sig .tc := ⟨.hbm, 132, rfl⟩
abbrev main_v67 : Ref sig .tc := ⟨.hbm, 133, rfl⟩
abbrev main_v68 : Ref sig .tc := ⟨.hbm, 134, rfl⟩
abbrev main_v69 : Ref sig .tc := ⟨.hbm, 135, rfl⟩
abbrev main_v70 : Ref sig .tc := ⟨.hbm, 136, rfl⟩
abbrev main_v71 : Ref sig .tc := ⟨.hbm, 137, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg20_0 : Ref sig .tc := ⟨.vmem, 22, rfl⟩
abbrev cc0_stg20_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem20_0 : DmaSem sig := 22
abbrev cc0_sem20_1 : DmaSem sig := 23

abbrev nD : Nat := 1
abbrev τ : Topo := Topo.v7x

variable {F : FTy → Type} [FloatOps F]

abbrev grid0 : Pipeline.Grid := ⟨1, ![50], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x25x3200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x25x3200 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S250x25 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S250x25 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S250x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S250x250 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S250x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S250x250 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S250x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S250x250 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S250x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S250x250 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S250x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S250x250 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S250x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S250x250 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S250x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S25x250 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S25x1 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S1x25x3200 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

class Facts₀ : Prop where
  shapeCasts_S4000000x1_S4000000 : S4000000x1.ShapeCasts S4000000
  shapeCasts_S4000000_S50x25x3200 : S4000000.ShapeCasts S50x25x3200
  bcast_S_S25x25 : S_.BroadcastsInDim S25x25 (![] : Fin 0 → Fin S25x25.rank)
  transposes_S1x10_S10x1_1_0 : S1x10.Transposes [1, 0] S10x1
  bcast_S25x25_S25x1x25x1_0_2 : S25x25.BroadcastsInDim S25x1x25x1 (![0, 2] : Fin 2 → Fin S25x1x25x1.rank)
  bcast_S10x1_S1x10x1x1_1_3 : S10x1.BroadcastsInDim S1x10x1x1 (![1, 3] : Fin 2 → Fin S1x10x1x1.rank)
  bcast_S25x1x25x1_S25x10x25x1_0_1_2_3 : S25x1x25x1.BroadcastsInDim S25x10x25x1 (![0, 1, 2, 3] : Fin 4 → Fin S25x10x25x1.rank)
  bcast_S1x10x1x1_S25x10x25x1_0_1_2_3 : S1x10x1x1.BroadcastsInDim S25x10x25x1 (![0, 1, 2, 3] : Fin 4 → Fin S25x10x25x1.rank)
  shapeCasts_S25x10x25x1_S250x25 : S25x10x25x1.ShapeCasts S250x25
  bitsLt_bf16_f32 : FTy.bits .bf16 < FTy.bits .f32
  shapeCasts_S10_S10x1 : S10.ShapeCasts S10x1
  shapeCasts_S10x1_S1x10x1x1 : S10x1.ShapeCasts S1x10x1x1
  bcast_S1x10x1x1_S25x10x1x1_0_1_2_3 : S1x10x1x1.BroadcastsInDim S25x10x1x1 (![0, 1, 2, 3] : Fin 4 → Fin S25x10x1x1.rank)
  shapeCasts_S25x10x1x1_S250x1 : S25x10x1x1.ShapeCasts S250x1
  transposes_S10x10_S10x10_1_0 : S10x10.Transposes [1, 0] S10x10
  bcast_S10x10_S1x10x1x10_1_3 : S10x10.BroadcastsInDim S1x10x1x10 (![1, 3] : Fin 2 → Fin S1x10x1x10.rank)
  bcast_S25x1x25x1_S25x10x25x10_0_1_2_3 : S25x1x25x1.BroadcastsInDim S25x10x25x10 (![0, 1, 2, 3] : Fin 4 → Fin S25x10x25x10.rank)
  bcast_S1x10x1x10_S25x10x25x10_0_1_2_3 : S1x10x1x10.BroadcastsInDim S25x10x25x10 (![0, 1, 2, 3] : Fin 4 → Fin S25x10x25x10.rank)
  shapeCasts_S25x10x25x10_S250x250 : S25x10x25x10.ShapeCasts S250x250
  transposes_S10x1_S1x10_1_0 : S10x1.Transposes [1, 0] S1x10
  bcast_S1x10_S1x1x1x10_1_3 : S1x10.BroadcastsInDim S1x1x1x10 (![1, 3] : Fin 2 → Fin S1x1x1x10.rank)
  bcast_S25x1x25x1_S25x1x25x10_0_1_2_3 : S25x1x25x1.BroadcastsInDim S25x1x25x10 (![0, 1, 2, 3] : Fin 4 → Fin S25x1x25x10.rank)
  bcast_S1x1x1x10_S25x1x25x10_0_1_2_3 : S1x1x1x10.BroadcastsInDim S25x1x25x10 (![0, 1, 2, 3] : Fin 4 → Fin S25x1x25x10.rank)
  shapeCasts_S25x1x25x10_S25x250 : S25x1x25x10.ShapeCasts S25x250
  shapeCasts_S1_S1x1 : S1.ShapeCasts S1x1
  shapeCasts_S1x1_S1x1x1x1 : S1x1.ShapeCasts S1x1x1x1
  bcast_S1x1x1x1_S25x1x1x1_0_1_2_3 : S1x1x1x1.BroadcastsInDim S25x1x1x1 (![0, 1, 2, 3] : Fin 4 → Fin S25x1x1x1.rank)
  shapeCasts_S25x1x1x1_S25x1 : S25x1x1x1.ShapeCasts S25x1
  inb_S1x25x3200_S1x25x3200_0_0_0 : ∀ a, (![0, 0, 0] : Fin 3 → Nat) a + S1x25x3200.size a ≤ S1x25x3200.size a
  h_S1x25x3200 : 0 < S1x25x3200.numel
  shapeCasts_S1x25x3200_S25x3200 : S1x25x3200.ShapeCasts S25x3200
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S250x25_S250x25_0_0 : ∀ a, (![0, 0] : Fin 2 → Nat) a + S250x25.size a ≤ S250x25.size a
  h_S250x25 : 0 < S250x25.numel
  shapeCasts_S250x25_S250x25 : S250x25.ShapeCasts S250x25
  inb_S250x1_S250x1_0_0 : ∀ a, (![0, 0] : Fin 2 → Nat) a + S250x1.size a ≤ S250x1.size a
  h_S250x1 : 0 < S250x1.numel
  shapeCasts_S250x1_S250x1 : S250x1.ShapeCasts S250x1
  broadcasts_S250x1_S250x3200 : S250x1.Broadcasts S250x3200
  broadcasts_S1x1_S250x3200 : S1x1.Broadcasts S250x3200
  inb_S250x250_S250x250_0_0 : ∀ a, (![0, 0] : Fin 2 → Nat) a + S250x250.size a ≤ S250x250.size a
  h_S250x250 : 0 < S250x250.numel
  shapeCasts_S250x250_S250x250 : S250x250.ShapeCasts S250x250
  inb_S25x250_S25x250_0_0 : ∀ a, (![0, 0] : Fin 2 → Nat) a + S25x250.size a ≤ S25x250.size a
  h_S25x250 : 0 < S25x250.numel
  shapeCasts_S25x250_S25x250 : S25x250.ShapeCasts S25x250
  inb_S25x1_S25x1_0_0 : ∀ a, (![0, 0] : Fin 2 → Nat) a + S25x1.size a ≤ S25x1.size a
  h_S25x1 : 0 < S25x1.numel
  shapeCasts_S25x1_S25x1 : S25x1.ShapeCasts S25x1
  broadcasts_S25x1_S25x3200 : S25x1.Broadcasts S25x3200
  shapeCasts_S25x3200_S1x25x3200 : S25x3200.ShapeCasts S1x25x3200
  shapeCasts_S50x25x3200_S4000000x1 : S50x25x3200.ShapeCasts S4000000x1
  dot_S250x25_S25x3200_S250x3200_1_0_0_1_n_n_wf : DotDims.WF S250x25 S25x3200 S250x3200 [1] [0] [0] [1] [] []
  dot_S250x250_S250x3200_S250x3200_1_0_0_1_n_n_wf : DotDims.WF S250x250 S250x3200 S250x3200 [1] [0] [0] [1] [] []
  dot_S25x250_S250x3200_S25x3200_1_0_0_1_n_n_wf : DotDims.WF S25x250 S250x3200 S25x3200 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x25x3200.size a ≤ S50x25x3200.size a
  hwx0_0 : ∀ i : grid0.Coords, EltTy.bits .f32 = 32 ∨ (Rect.block (s := S50x25x3200) S1x25x3200.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x25x3200.size a ≤ S50x25x3200.size a
  hwx0_1 : ∀ i : grid0.Coords, EltTy.bits .f32 = 32 ∨ (Rect.block (s := S50x25x3200) S1x25x3200.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S250x25.size a ≤ S250x25.size a
  hwx0_2 : ∀ i : grid0.Coords, EltTy.bits .bf16 = 32 ∨ (Rect.block (s := S250x25) S250x25.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S250x25.size a ≤ S250x25.size a
  hwx0_3 : ∀ i : grid0.Coords, EltTy.bits .bf16 = 32 ∨ (Rect.block (s := S250x25) S250x25.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S250x1.size a ≤ S250x1.size a
  hwx0_4 : ∀ i : grid0.Coords, EltTy.bits .f32 = 32 ∨ (Rect.block (s := S250x1) S250x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S250x250.size a ≤ S250x250.size a
  hwx0_5 : ∀ i : grid0.Coords, EltTy.bits .bf16 = 32 ∨ (Rect.block (s := S250x250) S250x250.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S250x1.size a ≤ S250x1.size a
  hwx0_6 : ∀ i : grid0.Coords, EltTy.bits .f32 = 32 ∨ (Rect.block (s := S250x1) S250x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S250x250.size a ≤ S250x250.size a
  hwx0_7 : ∀ i : grid0.Coords, EltTy.bits .bf16 = 32 ∨ (Rect.block (s := S250x250) S250x250.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S250x1.size a ≤ S250x1.size a
  hwx0_8 : ∀ i : grid0.Coords, EltTy.bits .f32 = 32 ∨ (Rect.block (s := S250x1) S250x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S250x250.size a ≤ S250x250.size a
  hwx0_9 : ∀ i : grid0.Coords, EltTy.bits .bf16 = 32 ∨ (Rect.block (s := S250x250) S250x250.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S250x1.size a ≤ S250x1.size a
  hwx0_10 : ∀ i : grid0.Coords, EltTy.bits .f32 = 32 ∨ (Rect.block (s := S250x1) S250x1.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S250x250.size a ≤ S250x250.size a
  hwx0_11 : ∀ i : grid0.Coords, EltTy.bits .bf16 = 32 ∨ (Rect.block (s := S250x250) S250x250.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S250x1.size a ≤ S250x1.size a
  hwx0_12 : ∀ i : grid0.Coords, EltTy.bits .f32 = 32 ∨ (Rect.block (s := S250x1) S250x1.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S250x250.size a ≤ S250x250.size a
  hwx0_13 : ∀ i : grid0.Coords, EltTy.bits .bf16 = 32 ∨ (Rect.block (s := S250x250) S250x250.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S250x1.size a ≤ S250x1.size a
  hwx0_14 : ∀ i : grid0.Coords, EltTy.bits .f32 = 32 ∨ (Rect.block (s := S250x1) S250x1.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S250x250.size a ≤ S250x250.size a
  hwx0_15 : ∀ i : grid0.Coords, EltTy.bits .bf16 = 32 ∨ (Rect.block (s := S250x250) S250x250.size (cc0_transform_15 i) (hinb0_15 i)).WholeWords (EltTy.packing .bf16)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S250x1.size a ≤ S250x1.size a
  hwx0_16 : ∀ i : grid0.Coords, EltTy.bits .f32 = 32 ∨ (Rect.block (s := S250x1) S250x1.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S1x1.size a ≤ S1x1.size a
  hwx0_17 : ∀ i : grid0.Coords, EltTy.bits .f32 = 32 ∨ (Rect.block (s := S1x1) S1x1.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S25x250.size a ≤ S25x250.size a
  hwx0_18 : ∀ i : grid0.Coords, EltTy.bits .bf16 = 32 ∨ (Rect.block (s := S25x250) S25x250.size (cc0_transform_18 i) (hinb0_18 i)).WholeWords (EltTy.packing .bf16)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S25x1.size a ≤ S25x1.size a
  hwx0_19 : ∀ i : grid0.Coords, EltTy.bits .f32 = 32 ∨ (Rect.block (s := S25x1) S25x1.size (cc0_transform_19 i) (hinb0_19 i)).WholeWords (EltTy.packing .f32)
  hstage0_20 : ∀ j, (stage0_20 j).IsWhole
  nbuf0_20 : grid0.bufCount reads0_20 false = 2
  hreads0_20 : ∀ i i' : grid0.Coords, (∀ a, reads0_20 a = true → i a = i' a) → cc0_transform_20 i = cc0_transform_20 i'
  hinb0_20 : ∀ (i : grid0.Coords) a, (cc0_transform_20 i a + 1) * S1x25x3200.size a ≤ S50x25x3200.size a
  hwx0_20 : ∀ i : grid0.Coords, EltTy.bits .f32 = 32 ∨ (Rect.block (s := S50x25x3200) S1x25x3200.size (cc0_transform_20 i) (hinb0_20 i)).WholeWords (EltTy.packing .f32)

variable [Facts₀]

def dot_S250x25_S25x3200_S250x3200_1_0_0_1_n_n : DotDims S250x25 S25x3200 S250x3200 where
  lhsContracting := [1]
  rhsContracting := [0]
  lhsNonContracting := [0]
  rhsNonContracting := [1]
  lhsBatch := []
  rhsBatch := []
  wf := dot_S250x25_S25x3200_S250x3200_1_0_0_1_n_n_wf
def dot_S250x250_S250x3200_S250x3200_1_0_0_1_n_n : DotDims S250x250 S250x3200 S250x3200 where
  lhsContracting := [1]
  rhsContracting := [0]
  lhsNonContracting := [0]
  rhsNonContracting := [1]
  lhsBatch := []
  rhsBatch := []
  wf := dot_S250x250_S250x3200_S250x3200_1_0_0_1_n_n_wf
def dot_S25x250_S250x3200_S25x3200_1_0_0_1_n_n : DotDims S25x250 S250x3200 S25x3200 where
  lhsContracting := [1]
  rhsContracting := [0]
  lhsNonContracting := [0]
  rhsNonContracting := [1]
  lhsBatch := []
  rhsBatch := []
  wf := dot_S25x250_S250x3200_S25x3200_1_0_0_1_n_n_wf

abbrev win0_0 : Pipeline.Window sig grid0 :=
  Pipeline.Window.ofSpec (Memref.whole main_v1) S1x25x3200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x25x3200.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S250x25.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S250x25.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S250x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S250x250.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26) S250x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v29) S250x250.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v33) S250x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v36) S250x250.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v40) S250x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v43) S250x250.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v47) S250x1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v50) S250x250.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v54) S250x1.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v57) S250x250.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v61) S250x1.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v69) S1x1.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v64) S25x250.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v68) S25x1.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v70) S1x25x3200.size cc0_transform_20 reads0_20 true false 2 stage0_20 sem0_20
    hrank0 hreads0_20 hinb0_20 nbuf0_20 (Memref.isWhole_whole _) hwx0_20 hstage0_20

abbrev win0 : Fin 21 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | ⟨_ + 21, h⟩ => absurd h (Nat.not_lt.2 (Nat.le_add_left _ _))
abbrev spec0 : Fin 21 → Pipeline.WinSpec sig grid0.rank := fun w => (win0 w).toWinSpec

class Facts : Prop extends Facts₀ where

variable [Facts]
-- ==== ReferenceIdeal.lean ====
abbrev S4000000x1 : Shape := ⟨2, ![4000000, 1]⟩
abbrev S1x10 : Shape := ⟨2, ![1, 10]⟩
abbrev S10 : Shape := ⟨1, ![10]⟩
abbrev S10x10 : Shape := ⟨2, ![10, 10]⟩
abbrev S1 : Shape := ⟨1, ![1]⟩
abbrev S10x1 : Shape := ⟨2, ![10, 1]⟩
abbrev S4000000x10 : Shape := ⟨2, ![4000000, 10]⟩
abbrev S1x1 : Shape := ⟨2, ![1, 1]⟩

abbrev nBuf : Space → Nat
  | .hbm => 82
  | .vmem => 0
  | .smem => 0
  | _ => 0

abbrev bufTy : (tb : Table) → Fin (tcTables nBuf tb) → BufTy
  | .hbm, ⟨0, _⟩ => ⟨S4000000x1, .f32⟩
  | .hbm, ⟨1, _⟩ => ⟨S4000000x1, .f32⟩
  | .hbm, ⟨2, _⟩ => ⟨S1x10, .f32⟩
  | .hbm, ⟨3, _⟩ => ⟨S1x10, .f32⟩
  | .hbm, ⟨4, _⟩ => ⟨S10, .f32⟩
  | .hbm, ⟨5, _⟩ => ⟨S10x10, .f32⟩
  | .hbm, ⟨6, _⟩ => ⟨S10, .f32⟩
  | .hbm, ⟨7, _⟩ => ⟨S10x10, .f32⟩
  | .hbm, ⟨8, _⟩ => ⟨S10, .f32⟩
  | .hbm, ⟨9, _⟩ => ⟨S10x10, .f32⟩
  | .hbm, ⟨10, _⟩ => ⟨S10, .f32⟩
  | .hbm, ⟨11, _⟩ => ⟨S10x10, .f32⟩
  | .hbm, ⟨12, _⟩ => ⟨S10, .f32⟩
  | .hbm, ⟨13, _⟩ => ⟨S10x10, .f32⟩
  | .hbm, ⟨14, _⟩ => ⟨S10, .f32⟩
  | .hbm, ⟨15, _⟩ => ⟨S10x10, .f32⟩
  | .hbm, ⟨16, _⟩ => ⟨S10, .f32⟩
  | .hbm, ⟨17, _⟩ => ⟨S1, .f32⟩
  | .hbm, ⟨18, _⟩ => ⟨S10x1, .f32⟩
  | .hbm, ⟨19, _⟩ => ⟨S1, .f32⟩
  | .hbm, ⟨20, _⟩ => ⟨S4000000x10, .f32⟩
  | .hbm, ⟨21, _⟩ => ⟨S4000000x10, .f32⟩
  | .hbm, ⟨22, _⟩ => ⟨S4000000x10, .f32⟩
  | .hbm, ⟨23, _⟩ => ⟨S1x10, .f32⟩
  | .hbm, ⟨24, _⟩ => ⟨S4000000x10, .f32⟩
  | .hbm, ⟨25, _⟩ => ⟨S4000000x10, .f32⟩
  | .hbm, ⟨26, _⟩ => ⟨S1x1, .f32⟩
  | .hbm, ⟨27, _⟩ => ⟨S4000000x10, .f32⟩
  | .hbm, ⟨28, _⟩ => ⟨S4000000x10, .f32⟩
  | .hbm, ⟨29, _⟩ => ⟨S4000000x10, .f32⟩
  | .hbm, ⟨30, _⟩ => ⟨S4000000x10, .f32⟩
  | .hbm, ⟨31, _⟩ => ⟨S1x10, .f32⟩
  | .hbm, ⟨32, _⟩ => ⟨S4000000x10, .f32⟩
  | .hbm, ⟨33, _⟩ => ⟨S4000000x10, .f32⟩
  | .hbm, ⟨34, _⟩ => ⟨S1x1, .f32⟩
  | .hbm, ⟨35, _⟩ => ⟨S4000000x10, .f32⟩
  | .hbm, ⟨36, _⟩ => ⟨S4000000x10, .f32⟩
  | .hbm, ⟨37, _⟩ => ⟨S4000000x10, .f32⟩
  | .hbm, ⟨38, _⟩ => ⟨S4000000x10, .f32⟩
  | .hbm, ⟨39, _⟩ => ⟨S1x10, .f32⟩
  | .hbm, ⟨40, _⟩ => ⟨S4000000x10, .f32⟩
  | .hbm, ⟨41, _⟩ => ⟨S4000000x10, .f32⟩
  | .hbm, ⟨42, _⟩ => ⟨S1x1, .f32⟩
  | .hbm, ⟨43, _⟩ => ⟨S4000000x10, .f32⟩
  | .hbm, ⟨44, _⟩ => ⟨S4000000x10, .f32⟩
  | .hbm, ⟨45, _⟩ => ⟨S4000000x10, .f32⟩
  | .hbm, ⟨46, _⟩ => ⟨S4000000x10, .f32⟩
  | .hbm, ⟨47, _⟩ => ⟨S1x10, .f32⟩
  | .hbm, ⟨48, _⟩ => ⟨S4000000x10, .f32⟩
  | .hbm, ⟨49, _⟩ => ⟨S4000000x10, .f32⟩
  | .hbm, ⟨50, _⟩ => ⟨S1x1, .f32⟩
  | .hbm, ⟨51, _⟩ => ⟨S4000000x10, .f32⟩
  | .hbm, ⟨52, _⟩ => ⟨S4000000x10, .f32⟩
  | .hbm, ⟨53, _⟩ => ⟨S4000000x10, .f32⟩
  | .hbm, ⟨54, _⟩ => ⟨S4000000x10, .f32⟩
  | .hbm, ⟨55, _⟩ => ⟨S1x10, .f32⟩
  | .hbm, ⟨56, _⟩ => ⟨S4000000x10, .f32⟩
  | .hbm, ⟨57, _⟩ => ⟨S4000000x10, .f32⟩
  | .hbm, ⟨58, _⟩ => ⟨S1x1, .f32⟩
  | .hbm, ⟨59, _⟩ => ⟨S4000000x10, .f32⟩
  | .hbm, ⟨60, _⟩ => ⟨S4000000x10, .f32⟩
  | .hbm, ⟨61, _⟩ => ⟨S4000000x10, .f32⟩
  | .hbm, ⟨62, _⟩ => ⟨S4000000x10, .f32⟩
  | .hbm, ⟨63, _⟩ => ⟨S1x10, .f32⟩
  | .hbm, ⟨64, _⟩ => ⟨S4000000x10, .f32⟩
  | .hbm, ⟨65, _⟩ => ⟨S4000000x10, .f32⟩
  | .hbm, ⟨66, _⟩ => ⟨S1x1, .f32⟩
  | .hbm, ⟨67, _⟩ => ⟨S4000000x10, .f32⟩
  | .hbm, ⟨68, _⟩ => ⟨S4000000x10, .f32⟩
  | .hbm, ⟨69, _⟩ => ⟨S4000000x10, .f32⟩
  | .hbm, ⟨70, _⟩ => ⟨S4000000x10, .f32⟩
  | .hbm, ⟨71, _⟩ => ⟨S1x10, .f32⟩
  | .hbm, ⟨72, _⟩ => ⟨S4000000x10, .f32⟩
  | .hbm, ⟨73, _⟩ => ⟨S4000000x10, .f32⟩
  | .hbm, ⟨74, _⟩ => ⟨S1x1, .f32⟩
  | .hbm, ⟨75, _⟩ => ⟨S4000000x10, .f32⟩
  | .hbm, ⟨76, _⟩ => ⟨S4000000x10, .f32⟩
  | .hbm, ⟨77, _⟩ => ⟨S4000000x10, .f32⟩
  | .hbm, ⟨78, _⟩ => ⟨S4000000x1, .f32⟩
  | .hbm, ⟨79, _⟩ => ⟨S1x1, .f32⟩
  | .hbm, ⟨80, _⟩ => ⟨S4000000x1, .f32⟩
  | .hbm, ⟨81, _⟩ => ⟨S4000000x1, .f32⟩
  | _, _ => ⟨S4000000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩

abbrev nD : Nat := 1
abbrev τ : Topo := Topo.v7x

variable {F : FTy → Type} [FloatOps F]

class Facts₀ : Prop where
  bcast_S10_S1x10_1 : S10.BroadcastsInDim S1x10 (![1] : Fin 1 → Fin S1x10.rank)
  bcast_S1x10_S4000000x10_0_1 : S1x10.BroadcastsInDim S4000000x10 (![0, 1] : Fin 2 → Fin S4000000x10.rank)
  bcast_S1_S1x1_1 : S1.BroadcastsInDim S1x1 (![1] : Fin 1 → Fin S1x1.rank)
  bcast_S1x1_S4000000x10_0_1 : S1x1.BroadcastsInDim S4000000x10 (![0, 1] : Fin 2 → Fin S4000000x10.rank)
  bcast_S1x1_S4000000x1_0_1 : S1x1.BroadcastsInDim S4000000x1 (![0, 1] : Fin 2 → Fin S4000000x1.rank)
  dot_S4000000x1_S1x10_S4000000x10_1_0_0_1_n_n_wf : DotDims.WF S4000000x1 S1x10 S4000000x10 [1] [0] [0] [1] [] []
  dot_S4000000x10_S10x10_S4000000x10_1_0_0_1_n_n_wf : DotDims.WF S4000000x10 S10x10 S4000000x10 [1] [0] [0] [1] [] []
  dot_S4000000x10_S10x1_S4000000x1_1_0_0_1_n_n_wf : DotDims.WF S4000000x10 S10x1 S4000000x1 [1] [0] [0] [1] [] []

variable [Facts₀]

def dot_S4000000x1_S1x10_S4000000x10_1_0_0_1_n_n : DotDims S4000000x1 S1x10 S4000000x10 where
  lhsContracting := [1]
  rhsContracting := [0]
  lhsNonContracting := [0]
  rhsNonContracting := [1]
  lhsBatch := []
  rhsBatch := []
  wf := dot_S4000000x1_S1x10_S4000000x10_1_0_0_1_n_n_wf
def dot_S4000000x10_S10x10_S4000000x10_1_0_0_1_n_n : DotDims S4000000x10 S10x10 S4000000x10 where
  lhsContracting := [1]
  rhsContracting := [0]
  lhsNonContracting := [0]
  rhsNonContracting := [1]
  lhsBatch := []
  rhsBatch := []
  wf := dot_S4000000x10_S10x10_S4000000x10_1_0_0_1_n_n_wf
def dot_S4000000x10_S10x1_S4000000x1_1_0_0_1_n_n : DotDims S4000000x10 S10x1 S4000000x1 where
  lhsContracting := [1]
  rhsContracting := [0]
  lhsNonContracting := [0]
  rhsNonContracting := [1]
  lhsBatch := []
  rhsBatch := []
  wf := dot_S4000000x10_S10x1_S4000000x1_1_0_0_1_n_n_wf

class Facts : Prop extends Facts₀ where

variable [Facts]
-- ==== Proof.HostGlue.lean ====
/-
  The arrays the region is launched on, as functions of the program's arguments, read at an index.

  Before the region the program lays its arguments out for twenty-five samples at a time:
  * the two input columns `[4000000, 1]` are viewed as `[50, 25, 3200]`: entry `(t, g, c)` is sample
    `(t · 25 + g) · 3200 + c` (`foldInput_apply`);
  * `eye` is the 25 × 25 identity, built by comparing two coordinate grids: `1` on the diagonal, `0` off it
    (`eye_apply`);
  * a weight `W` becomes `I₂₅ ⊗ Wᵀ`: with rows `r = g · 10 + j` and columns `k = a · 10 + b` the entry is
    `eye (g, a) · W (b, j)` (`kronMid_apply`; `kronFirst_apply` and `kronLast_apply` are the same for a weight with
    one row and with one column);
  * a bias `B : [10]` is repeated for the twenty-five groups as a column `[250, 1]`: row `g · 10 + j` reads `B j`
    (`tileBias_apply`), and the output bias `[1]` as a column `[25, 1]` (`tileOut_apply`);
  * the scale `[1]` is viewed as `[1, 1]` (`scale_apply`).
  Every layout step keeps the row-major position (a reshape) or reads coordinate `0` on a repeated axis (a
  broadcast), and a change of float format is the identity on extended reals.
-/
import proofs.«177182_j41609643164201_2_alg».proof.Proof.Gen.KernelIdeal
import Idealize.ShloMosaic.PureOps.Ideal.Laws
import Idealize.ShloMosaic.Lib.ValueIdx
import Idealize.ShloMosaic.Lib.Pipeline.Value

set_option maxRecDepth 16384

noncomputable section

namespace Cert.KernelIdeal.Glue

open Cert.KernelIdeal Cert.KernelIdeal.Gen Idealize.ShloMosaic Idealize.ShloMosaic.ValueIdx

/-! ## The input columns, twenty-five samples to a tile -/

/-- An input column `[4000000, 1]` viewed flat and then as `[50, 25, 3200]`. -/
def foldInput (x : FVec Ideal S4000000x1 .f32) : FVec Ideal S50x25x3200 .f32 :=
  shapeCast S50x25x3200 (shapeCast S4000000 x shapeCasts_S4000000x1_S4000000) shapeCasts_S4000000_S50x25x3200

/-- Entry `(t, g, c)` of the folded column is sample `(t · 25 + g) · 3200 + c`. -/
theorem foldInput_apply (x : FVec Ideal S4000000x1 .f32) (t : Fin 50) (g : Fin 25) (c : Fin 3200) (n : Fin 4000000)
    (hn : n.val = (t.val * 25 + g.val) * 3200 + c.val) : foldInput x (ix3 t g c) = x (ix2 n 0) := by
  unfold foldInput
  refine (shapeCast_apply _ shapeCasts_S4000000_S50x25x3200 (ix3 t g c) (ix1 n) ?_).trans
    (shapeCast_apply x shapeCasts_S4000000x1_S4000000 (ix1 n) (ix2 n 0) ?_)
  · rw [Shape.rowMajor_val_one, Shape.rowMajor_val_three]
    show n.val = (t.val * 25 + g.val) * 3200 + c.val
    exact hn
  · rw [Shape.rowMajor_val_two, Shape.rowMajor_val_one]
    show n.val * 1 + 0 = n.val
    omega

/-! ## The identity of order twenty-five -/

/-- The 25 × 25 identity: row coordinate (plus zero) compared with column coordinate, as a float. -/
def eye : FVec Ideal S25x25 .f32 :=
  uitofp .f32 (cmpi .eq (addi (iotaInDim S25x25 32 0) (broadcastInDim S25x25 ![] bcast_S_S25x25 (constantI S_ 32 0#32)))
    (iotaInDim S25x25 32 1))

theorem eye_bit : ∀ g a : Fin 25,
    IntOp.cmpi .eq (IntOp.addi (BitVec.ofNat 32 g.val) 0#32) (BitVec.ofNat 32 a.val) = if g = a then 1#1 else 0#1 := by
  decide +kernel

/-- `eye (g, a)` is `1` when `g = a` and `0` otherwise. -/
theorem eye_apply (g a : Fin 25) : eye (ix2 g a) = if g = a then (1 : EReal) else 0 := by
  show (((IntOp.cmpi .eq (IntOp.addi (BitVec.ofNat 32 g.val) 0#32) (BitVec.ofNat 32 a.val)).toNat : ℝ) : EReal) = _
  rw [eye_bit]
  split <;> simp

/-! ## A weight against the identity -/

/-- `I₂₅ ⊗ Wᵀ` for a `[10, 10]` weight, as a `[250, 250]` array. -/
def kronMid (E : FVec Ideal S25x25 .f32) (W : FVec Ideal S10x10 .f32) : FVec Ideal S250x250 .bf16 :=
  truncf .bf16 (shapeCast S250x250
    (mulf (broadcastInDim S25x10x25x10 ![0, 1, 2, 3] bcast_S25x1x25x1_S25x10x25x10_0_1_2_3
        (broadcastInDim S25x1x25x1 ![0, 2] bcast_S25x25_S25x1x25x1_0_2 E))
      (broadcastInDim S25x10x25x10 ![0, 1, 2, 3] bcast_S1x10x1x10_S25x10x25x10_0_1_2_3
        (broadcastInDim S1x10x1x10 ![1, 3] bcast_S10x10_S1x10x1x10_1_3 (transpose S10x10 [1, 0] W transposes_S10x10_S10x10_1_0))))
    shapeCasts_S25x10x25x10_S250x250) bitsLt_bf16_f32

/-- Row `g · 10 + j`, column `a · 10 + b` of `I₂₅ ⊗ Wᵀ` is `E (g, a) · W (b, j)`. -/
theorem kronMid_apply (E : FVec Ideal S25x25 .f32) (W : FVec Ideal S10x10 .f32) (g a : Fin 25) (j b : Fin 10)
    (r k : Fin 250) (hr : r.val = g.val * 10 + j.val) (hk : k.val = a.val * 10 + b.val) :
    kronMid E W (ix2 r k) = E (ix2 g a) * W (ix2 b j) := by
  unfold kronMid
  rw [truncf_apply]
  refine (shapeCast_apply _ shapeCasts_S25x10x25x10_S250x250 (ix2 r k) (ix4 g j a b) ?_).trans ?_
  · rw [Shape.rowMajor_val_four, Shape.rowMajor_val_two]
    show ((g.val * 10 + j.val) * 25 + a.val) * 10 + b.val = r.val * 250 + k.val
    omega
  rw [mulf_apply]
  congr 1
  · refine (broadcastInDim_apply _ bcast_S25x1x25x1_S25x10x25x10_0_1_2_3 _ (ix4 g j a b) (ix4 g 0 a 0) fun d => ?_).trans
      (broadcastInDim_apply _ bcast_S25x25_S25x1x25x1_0_2 E (ix4 g 0 a 0) (ix2 g a) fun d => ?_)
    · match d with
      | ⟨0, _⟩ => rfl
      | ⟨1, _⟩ => rfl
      | ⟨2, _⟩ => rfl
      | ⟨3, _⟩ => rfl
    · match d with
      | ⟨0, _⟩ => rfl
      | ⟨1, _⟩ => rfl
  · refine (broadcastInDim_apply _ bcast_S1x10x1x10_S25x10x25x10_0_1_2_3 _ (ix4 g j a b) (ix4 0 j 0 b) fun d => ?_).trans
      ((broadcastInDim_apply _ bcast_S10x10_S1x10x1x10_1_3 _ (ix4 0 j 0 b) (ix2 j b) fun d => ?_).trans
        (transpose_apply [1, 0] W transposes_S10x10_S10x10_1_0 (ix2 j b) (ix2 b j) fun d => ?_))
    · match d with
      | ⟨0, _⟩ => rfl
      | ⟨1, _⟩ => rfl
      | ⟨2, _⟩ => rfl
      | ⟨3, _⟩ => rfl
    · match d with
      | ⟨0, _⟩ => rfl
      | ⟨1, _⟩ => rfl
    · match d with
      | ⟨0, _⟩ => rfl
      | ⟨1, _⟩ => rfl

/-- `I₂₅ ⊗ W₁ᵀ` for a `[1, 10]` weight, as a `[250, 25]` array. -/
def kronFirst (E : FVec Ideal S25x25 .f32) (W : FVec Ideal S1x10 .f32) : FVec Ideal S250x25 .bf16 :=
  truncf .bf16 (shapeCast S250x25
    (mulf (broadcastInDim S25x10x25x1 ![0, 1, 2, 3] bcast_S25x1x25x1_S25x10x25x1_0_1_2_3
        (broadcastInDim S25x1x25x1 ![0, 2] bcast_S25x25_S25x1x25x1_0_2 E))
      (broadcastInDim S25x10x25x1 ![0, 1, 2, 3] bcast_S1x10x1x1_S25x10x25x1_0_1_2_3
        (broadcastInDim S1x10x1x1 ![1, 3] bcast_S10x1_S1x10x1x1_1_3 (transpose S10x1 [1, 0] W transposes_S1x10_S10x1_1_0))))
    shapeCasts_S25x10x25x1_S250x25) bitsLt_bf16_f32

/-- Row `g · 10 + j`, column `a` of `I₂₅ ⊗ W₁ᵀ` is `E (g, a) · W₁ (0, j)`. -/
theorem kronFirst_apply (E : FVec Ideal S25x25 .f32) (W : FVec Ideal S1x10 .f32) (g a : Fin 25) (j : Fin 10)
    (r : Fin 250) (hr : r.val = g.val * 10 + j.val) :
    kronFirst E W (ix2 r a) = E (ix2 g a) * W (ix2 0 j) := by
  unfold kronFirst
  rw [truncf_apply]
  refine (shapeCast_apply _ shapeCasts_S25x10x25x1_S250x25 (ix2 r a) (ix4 g j a 0) ?_).trans ?_
  · rw [Shape.rowMajor_val_four, Shape.rowMajor_val_two]
    show ((g.val * 10 + j.val) * 25 + a.val) * 1 + 0 = r.val * 25 + a.val
    omega
  rw [mulf_apply]
  congr 1
  · refine (broadcastInDim_apply _ bcast_S25x1x25x1_S25x10x25x1_0_1_2_3 _ (ix4 g j a 0) (ix4 g 0 a 0) fun d => ?_).trans
      (broadcastInDim_apply _ bcast_S25x25_S25x1x25x1_0_2 E (ix4 g 0 a 0) (ix2 g a) fun d => ?_)
    · match d with
      | ⟨0, _⟩ => rfl
      | ⟨1, _⟩ => rfl
      | ⟨2, _⟩ => rfl
      | ⟨3, _⟩ => rfl
    · match d with
      | ⟨0, _⟩ => rfl
      | ⟨1, _⟩ => rfl
  · refine (broadcastInDim_apply _ bcast_S1x10x1x1_S25x10x25x1_0_1_2_3 _ (ix4 g j a 0) (ix4 0 j 0 0) fun d => ?_).trans
      ((broadcastInDim_apply _ bcast_S10x1_S1x10x1x1_1_3 _ (ix4 0 j 0 0) (ix2 j 0) fun d => ?_).trans
        (transpose_apply [1, 0] W transposes_S1x10_S10x1_1_0 (ix2 j 0) (ix2 0 j) fun d => ?_))
    · match d with
      | ⟨0, _⟩ => rfl
      | ⟨1, _⟩ => rfl
      | ⟨2, _⟩ => rfl
      | ⟨3, _⟩ => rfl
    · match d with
      | ⟨0, _⟩ => rfl
      | ⟨1, _⟩ => rfl
    · match d with
      | ⟨0, _⟩ => rfl
      | ⟨1, _⟩ => rfl

/-- `I₂₅ ⊗ W₉ᵀ` for a `[10, 1]` weight, as a `[25, 250]` array. -/
def kronLast (E : FVec Ideal S25x25 .f32) (W : FVec Ideal S10x1 .f32) : FVec Ideal S25x250 .bf16 :=
  truncf .bf16 (shapeCast S25x250
    (mulf (broadcastInDim S25x1x25x10 ![0, 1, 2, 3] bcast_S25x1x25x1_S25x1x25x10_0_1_2_3
        (broadcastInDim S25x1x25x1 ![0, 2] bcast_S25x25_S25x1x25x1_0_2 E))
      (broadcastInDim S25x1x25x10 ![0, 1, 2, 3] bcast_S1x1x1x10_S25x1x25x10_0_1_2_3
        (broadcastInDim S1x1x1x10 ![1, 3] bcast_S1x10_S1x1x1x10_1_3 (transpose S1x10 [1, 0] W transposes_S10x1_S1x10_1_0))))
    shapeCasts_S25x1x25x10_S25x250) bitsLt_bf16_f32

/-- Row `g`, column `a · 10 + b` of `I₂₅ ⊗ W₉ᵀ` is `E (g, a) · W₉ (b, 0)`. -/
theorem kronLast_apply (E : FVec Ideal S25x25 .f32) (W : FVec Ideal S10x1 .f32) (g a : Fin 25) (b : Fin 10)
    (k : Fin 250) (hk : k.val = a.val * 10 + b.val) :
    kronLast E W (ix2 g k) = E (ix2 g a) * W (ix2 b 0) := by
  unfold kronLast
  rw [truncf_apply]
  refine (shapeCast_apply _ shapeCasts_S25x1x25x10_S25x250 (ix2 g k) (ix4 g 0 a b) ?_).trans ?_
  · rw [Shape.rowMajor_val_four, Shape.rowMajor_val_two]
    show ((g.val * 1 + 0) * 25 + a.val) * 10 + b.val = g.val * 250 + k.val
    omega
  rw [mulf_apply]
  congr 1
  · refine (broadcastInDim_apply _ bcast_S25x1x25x1_S25x1x25x10_0_1_2_3 _ (ix4 g 0 a b) (ix4 g 0 a 0) fun d => ?_).trans
      (broadcastInDim_apply _ bcast_S25x25_S25x1x25x1_0_2 E (ix4 g 0 a 0) (ix2 g a) fun d => ?_)
    · match d with
      | ⟨0, _⟩ => rfl
      | ⟨1, _⟩ => rfl
      | ⟨2, _⟩ => rfl
      | ⟨3, _⟩ => rfl
    · match d with
      | ⟨0, _⟩ => rfl
      | ⟨1, _⟩ => rfl
  · refine (broadcastInDim_apply _ bcast_S1x1x1x10_S25x1x25x10_0_1_2_3 _ (ix4 g 0 a b) (ix4 0 0 0 b) fun d => ?_).trans
      ((broadcastInDim_apply _ bcast_S1x10_S1x1x1x10_1_3 _ (ix4 0 0 0 b) (ix2 0 b) fun d => ?_).trans
        (transpose_apply [1, 0] W transposes_S10x1_S1x10_1_0 (ix2 0 b) (ix2 b 0) fun d => ?_))
    · match d with
      | ⟨0, _⟩ => rfl
      | ⟨1, _⟩ => rfl
      | ⟨2, _⟩ => rfl
      | ⟨3, _⟩ => rfl
    · match d with
      | ⟨0, _⟩ => rfl
      | ⟨1, _⟩ => rfl
    · match d with
      | ⟨0, _⟩ => rfl
      | ⟨1, _⟩ => rfl

/-! ## The biases and the scale -/

/-- A bias `[10]` repeated for the twenty-five groups, as a column `[250, 1]`. -/
def tileBias (B : FVec Ideal S10 .f32) : FVec Ideal S250x1 .f32 :=
  shapeCast S250x1 (broadcastInDim S25x10x1x1 ![0, 1, 2, 3] bcast_S1x10x1x1_S25x10x1x1_0_1_2_3
    (shapeCast S1x10x1x1 (shapeCast S10x1 B shapeCasts_S10_S10x1) shapeCasts_S10x1_S1x10x1x1)) shapeCasts_S25x10x1x1_S250x1

/-- Row `g · 10 + j` of the repeated bias is `B j`. -/
theorem tileBias_apply (B : FVec Ideal S10 .f32) (g : Fin 25) (j : Fin 10) (r : Fin 250)
    (hr : r.val = g.val * 10 + j.val) : tileBias B (ix2 r 0) = B (ix1 j) := by
  unfold tileBias
  refine (shapeCast_apply _ shapeCasts_S25x10x1x1_S250x1 (ix2 r 0) (ix4 g j 0 0) ?_).trans
    ((broadcastInDim_apply _ bcast_S1x10x1x1_S25x10x1x1_0_1_2_3 _ (ix4 g j 0 0) (ix4 0 j 0 0) fun d => ?_).trans
      ((shapeCast_apply _ shapeCasts_S10x1_S1x10x1x1 (ix4 0 j 0 0) (ix2 j 0) ?_).trans
        (shapeCast_apply B shapeCasts_S10_S10x1 (ix2 j 0) (ix1 j) ?_)))
  · rw [Shape.rowMajor_val_four, Shape.rowMajor_val_two]
    show ((g.val * 10 + j.val) * 1 + 0) * 1 + 0 = r.val * 1 + 0
    omega
  · match d with
    | ⟨0, _⟩ => rfl
    | ⟨1, _⟩ => rfl
    | ⟨2, _⟩ => rfl
    | ⟨3, _⟩ => rfl
  · rw [Shape.rowMajor_val_two, Shape.rowMajor_val_four]
    show j.val * 1 + 0 = ((0 * 10 + j.val) * 1 + 0) * 1 + 0
    omega
  · rw [Shape.rowMajor_val_one, Shape.rowMajor_val_two]
    show j.val = j.val * 1 + 0
    omega

/-- The output bias `[1]` repeated for the twenty-five groups, as a column `[25, 1]`. -/
def tileOut (B : FVec Ideal S1 .f32) : FVec Ideal S25x1 .f32 :=
  shapeCast S25x1 (broadcastInDim S25x1x1x1 ![0, 1, 2, 3] bcast_S1x1x1x1_S25x1x1x1_0_1_2_3
    (shapeCast S1x1x1x1 (shapeCast S1x1 B shapeCasts_S1_S1x1) shapeCasts_S1x1_S1x1x1x1)) shapeCasts_S25x1x1x1_S25x1

/-- Every row of the repeated output bias is `B 0`. -/
theorem tileOut_apply (B : FVec Ideal S1 .f32) (g : Fin 25) : tileOut B (ix2 g 0) = B (ix1 0) := by
  unfold tileOut
  refine (shapeCast_apply _ shapeCasts_S25x1x1x1_S25x1 (ix2 g 0) (ix4 g 0 0 0) ?_).trans
    ((broadcastInDim_apply _ bcast_S1x1x1x1_S25x1x1x1_0_1_2_3 _ (ix4 g 0 0 0) (ix4 0 0 0 0) fun d => ?_).trans
      ((shapeCast_apply _ shapeCasts_S1x1_S1x1x1x1 (ix4 0 0 0 0) (ix2 0 0) ?_).trans
        (shapeCast_apply B shapeCasts_S1_S1x1 (ix2 0 0) (ix1 0) ?_)))
  · rw [Shape.rowMajor_val_four, Shape.rowMajor_val_two]
    show ((g.val * 1 + 0) * 1 + 0) * 1 + 0 = g.val * 1 + 0
    omega
  · match d with
    | ⟨0, _⟩ => rfl
    | ⟨1, _⟩ => rfl
    | ⟨2, _⟩ => rfl
    | ⟨3, _⟩ => rfl
  · rw [Shape.rowMajor_val_two, Shape.rowMajor_val_four]
    rfl
  · rw [Shape.rowMajor_val_one, Shape.rowMajor_val_two]
    rfl

/-- The scale `[1]` viewed as `[1, 1]`. -/
def scale (al : FVec Ideal S1 .f32) : FVec Ideal S1x1 .f32 := shapeCast S1x1 al shapeCasts_S1_S1x1

theorem scale_apply (al : FVec Ideal S1 .f32) : scale al (ix2 0 0) = al (ix1 0) := by
  unfold scale
  refine shapeCast_apply al shapeCasts_S1_S1x1 (ix2 0 0) (ix1 0) ?_
  rw [Shape.rowMajor_val_one, Shape.rowMajor_val_two]
  rfl

end Cert.KernelIdeal.Glue

end
-- ==== Proof.LaunchedA.lean ====
/-
  The arrays the region is launched on (windows 0 to 6): each is one layout term of one argument.

  The host lines before the region only reshape, repeat, transpose, compare coordinates and multiply; reading the
  program's text from the buffer a window stages back to the arguments gives, for each window, exactly the term of
  the argument named beside it: an input column folded into tiles, the identity of order twenty-five against a
  weight, a bias repeated over the groups, or the scale as a 1 × 1 array.
-/
import proofs.«177182_j41609643164201_2_alg».proof.Proof.Gen.KernelIdeal.Frame
import proofs.«177182_j41609643164201_2_alg».proof.Proof.HostGlue
import Idealize.ShloMosaic.Lib.StableHlo.Run

set_option maxRecDepth 16384

noncomputable section

namespace Cert.KernelIdeal.Glue

open Cert.KernelIdeal Cert.KernelIdeal.Gen Idealize.ShloMosaic Idealize.ShloMosaic.TcCoe Idealize.ShloMosaic.ValueIdx Idealize.SL.Sem Idealize.ShloMosaic.StableHlo

variable (m : (ℓ : Loc nD τ sig) → Buf (Elt Ideal) ℓ)

set_option maxHeartbeats 1000000 in
/-- Window 0's array is an input column folded into tiles. -/
theorem launched0 (c : Dev nD) : (V m c main_v1 : S50x25x3200.Idx → EReal) = foldInput (m ((c : Thread nD τ).loc main_arg0)) := by
  dsimp only [Gen.V, Gen.V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_results_simp
  rfl

set_option maxHeartbeats 1000000 in
/-- Window 1's array is an input column folded into tiles. -/
theorem launched1 (c : Dev nD) : (V m c main_v3 : S50x25x3200.Idx → EReal) = foldInput (m ((c : Thread nD τ).loc main_arg1)) := by
  dsimp only [Gen.V, Gen.V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_results_simp
  rfl

set_option maxHeartbeats 1000000 in
/-- Window 2's array is the identity against a one-row weight. -/
theorem launched2 (c : Dev nD) : (V m c main_v12 : S250x25.Idx → EReal) = kronFirst eye (m ((c : Thread nD τ).loc main_arg2)) := by
  dsimp only [Gen.V, Gen.V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_results_simp
  rfl

set_option maxHeartbeats 1000000 in
/-- Window 3's array is the identity against a one-row weight. -/
theorem launched3 (c : Dev nD) : (V m c main_v15 : S250x25.Idx → EReal) = kronFirst eye (m ((c : Thread nD τ).loc main_arg3)) := by
  dsimp only [Gen.V, Gen.V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_results_simp
  rfl

set_option maxHeartbeats 1000000 in
/-- Window 4's array is a bias repeated over the groups. -/
theorem launched4 (c : Dev nD) : (V m c main_v19 : S250x1.Idx → EReal) = tileBias (m ((c : Thread nD τ).loc main_arg4)) := by
  dsimp only [Gen.V, Gen.V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_results_simp
  rfl

set_option maxHeartbeats 1000000 in
/-- Window 5's array is the identity against a square weight. -/
theorem launched5 (c : Dev nD) : (V m c main_v22 : S250x250.Idx → EReal) = kronMid eye (m ((c : Thread nD τ).loc main_arg5)) := by
  dsimp only [Gen.V, Gen.V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_results_simp
  rfl

set_option maxHeartbeats 1000000 in
/-- Window 6's array is a bias repeated over the groups. -/
theorem launched6 (c : Dev nD) : (V m c main_v26 : S250x1.Idx → EReal) = tileBias (m ((c : Thread nD τ).loc main_arg6)) := by
  dsimp only [Gen.V, Gen.V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_results_simp
  rfl

end Cert.KernelIdeal.Glue

end
-- ==== Proof.LaunchedB.lean ====
/-
  The arrays the region is launched on (windows 7 to 13): each is one layout term of one argument.

  The host lines before the region only reshape, repeat, transpose, compare coordinates and multiply; reading the
  program's text from the buffer a window stages back to the arguments gives, for each window, exactly the term of
  the argument named beside it: an input column folded into tiles, the identity of order twenty-five against a
  weight, a bias repeated over the groups, or the scale as a 1 × 1 array.
-/
import proofs.«177182_j41609643164201_2_alg».proof.Proof.Gen.KernelIdeal.Frame
import proofs.«177182_j41609643164201_2_alg».proof.Proof.HostGlue
import Idealize.ShloMosaic.Lib.StableHlo.Run

set_option maxRecDepth 16384

noncomputable section

namespace Cert.KernelIdeal.Glue

open Cert.KernelIdeal Cert.KernelIdeal.Gen Idealize.ShloMosaic Idealize.ShloMosaic.TcCoe Idealize.ShloMosaic.ValueIdx Idealize.SL.Sem Idealize.ShloMosaic.StableHlo

variable (m : (ℓ : Loc nD τ sig) → Buf (Elt Ideal) ℓ)

set_option maxHeartbeats 1000000 in
/-- Window 7's array is the identity against a square weight. -/
theorem launched7 (c : Dev nD) : (V m c main_v29 : S250x250.Idx → EReal) = kronMid eye (m ((c : Thread nD τ).loc main_arg7)) := by
  dsimp only [Gen.V, Gen.V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_results_simp
  rfl

set_option maxHeartbeats 1000000 in
/-- Window 8's array is a bias repeated over the groups. -/
theorem launched8 (c : Dev nD) : (V m c main_v33 : S250x1.Idx → EReal) = tileBias (m ((c : Thread nD τ).loc main_arg8)) := by
  dsimp only [Gen.V, Gen.V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_results_simp
  rfl

set_option maxHeartbeats 1000000 in
/-- Window 9's array is the identity against a square weight. -/
theorem launched9 (c : Dev nD) : (V m c main_v36 : S250x250.Idx → EReal) = kronMid eye (m ((c : Thread nD τ).loc main_arg9)) := by
  dsimp only [Gen.V, Gen.V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_results_simp
  rfl

set_option maxHeartbeats 1000000 in
/-- Window 10's array is a bias repeated over the groups. -/
theorem launched10 (c : Dev nD) : (V m c main_v40 : S250x1.Idx → EReal) = tileBias (m ((c : Thread nD τ).loc main_arg10)) := by
  dsimp only [Gen.V, Gen.V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_results_simp
  rfl

set_option maxHeartbeats 1000000 in
/-- Window 11's array is the identity against a square weight. -/
theorem launched11 (c : Dev nD) : (V m c main_v43 : S250x250.Idx → EReal) = kronMid eye (m ((c : Thread nD τ).loc main_arg11)) := by
  dsimp only [Gen.V, Gen.V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_results_simp
  rfl

set_option maxHeartbeats 1000000 in
/-- Window 12's array is a bias repeated over the groups. -/
theorem launched12 (c : Dev nD) : (V m c main_v47 : S250x1.Idx → EReal) = tileBias (m ((c : Thread nD τ).loc main_arg12)) := by
  dsimp only [Gen.V, Gen.V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_results_simp
  rfl

set_option maxHeartbeats 1000000 in
/-- Window 13's array is the identity against a square weight. -/
theorem launched13 (c : Dev nD) : (V m c main_v50 : S250x250.Idx → EReal) = kronMid eye (m ((c : Thread nD τ).loc main_arg13)) := by
  dsimp only [Gen.V, Gen.V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_results_simp
  rfl

end Cert.KernelIdeal.Glue

end
-- ==== Proof.LaunchedC.lean ====
/-
  The arrays the region is launched on (windows 14 to 19): each is one layout term of one argument.

  The host lines before the region only reshape, repeat, transpose, compare coordinates and multiply; reading the
  program's text from the buffer a window stages back to the arguments gives, for each window, exactly the term of
  the argument named beside it: an input column folded into tiles, the identity of order twenty-five against a
  weight, a bias repeated over the groups, or the scale as a 1 × 1 array.
-/
import proofs.«177182_j41609643164201_2_alg».proof.Proof.Gen.KernelIdeal.Frame
import proofs.«177182_j41609643164201_2_alg».proof.Proof.HostGlue
import Idealize.ShloMosaic.Lib.StableHlo.Run

set_option maxRecDepth 16384

noncomputable section

namespace Cert.KernelIdeal.Glue

open Cert.KernelIdeal Cert.KernelIdeal.Gen Idealize.ShloMosaic Idealize.ShloMosaic.TcCoe Idealize.ShloMosaic.ValueIdx Idealize.SL.Sem Idealize.ShloMosaic.StableHlo

variable (m : (ℓ : Loc nD τ sig) → Buf (Elt Ideal) ℓ)

set_option maxHeartbeats 1000000 in
/-- Window 14's array is a bias repeated over the groups. -/
theorem launched14 (c : Dev nD) : (V m c main_v54 : S250x1.Idx → EReal) = tileBias (m ((c : Thread nD τ).loc main_arg14)) := by
  dsimp only [Gen.V, Gen.V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_results_simp
  rfl

set_option maxHeartbeats 1000000 in
/-- Window 15's array is the identity against a square weight. -/
theorem launched15 (c : Dev nD) : (V m c main_v57 : S250x250.Idx → EReal) = kronMid eye (m ((c : Thread nD τ).loc main_arg15)) := by
  dsimp only [Gen.V, Gen.V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_results_simp
  rfl

set_option maxHeartbeats 1000000 in
/-- Window 16's array is a bias repeated over the groups. -/
theorem launched16 (c : Dev nD) : (V m c main_v61 : S250x1.Idx → EReal) = tileBias (m ((c : Thread nD τ).loc main_arg16)) := by
  dsimp only [Gen.V, Gen.V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_results_simp
  rfl

set_option maxHeartbeats 1000000 in
/-- Window 17's array is the scale as a 1 × 1 array. -/
theorem launched17 (c : Dev nD) : (V m c main_v69 : S1x1.Idx → EReal) = scale (m ((c : Thread nD τ).loc main_arg17)) := by
  dsimp only [Gen.V, Gen.V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_results_simp
  rfl

set_option maxHeartbeats 1000000 in
/-- Window 18's array is the identity against a one-column weight. -/
theorem launched18 (c : Dev nD) : (V m c main_v64 : S25x250.Idx → EReal) = kronLast eye (m ((c : Thread nD τ).loc main_arg18)) := by
  dsimp only [Gen.V, Gen.V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_results_simp
  rfl

set_option maxHeartbeats 1000000 in
/-- Window 19's array is the output bias repeated over the groups. -/
theorem launched19 (c : Dev nD) : (V m c main_v68 : S25x1.Idx → EReal) = tileOut (m ((c : Thread nD τ).loc main_arg19)) := by
  dsimp only [Gen.V, Gen.V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_results_simp
  rfl

end Cert.KernelIdeal.Glue

end
-- ==== Proof.MlpSpec.lean ====
/-
  The network of one sample, and the law that lets twenty-five samples share one block-diagonal product.

  A sample is a pair of scalars `(x₁, x₂)`. Its first layer is
  `tanh (a · (x₁ · W₁ j + x₂ · W₂ j + B₁ j))` for `j < 10`; each of six hidden layers maps ten activations `L` to
  `tanh (a · (∑ i, L i · W i j + B j))`; the output is `∑ i, L i · W₉ i + B₉`. Everything is an extended real and
  every operation the exact one, so the only laws available are those of a commutative monoid under `+` and
  under `·` together with `0 · x = 0` and `1 · x = x`: no distributivity, hence no finiteness, is used anywhere.

  `sum_blockdiag` is the one algebraic fact behind folding `G` samples into one product: when a row of weights
  indexed by `(group, feature)` is `δ(g, a) · w b` — the row of `I_G ⊗ wᵀ` that belongs to group `g` — its inner
  product with any column `Lb` is the inner product of `w` with group `g`'s part of `Lb`; every other group
  contributes `(0 · w b) · Lb = 0`.
-/
import Idealize.ShloMosaic.PureOps.Ideal.Laws
import Idealize.ShloMosaic.Lib.ValueIdx

noncomputable section

namespace Cert.Mlp

open Idealize.ShloMosaic Idealize.ShloMosaic.ValueIdx

/-! ## One sample's layers -/

/-- The first layer: two scalar inputs against two weight rows `[1, 10]`, a bias `[10]`, scaled by `a`. -/
def first (a x1 x2 : EReal) (W1 W2 : (⟨2, ![1, 10]⟩ : Shape).Idx → EReal) (B1 : (⟨1, ![10]⟩ : Shape).Idx → EReal) :
    Fin 10 → EReal :=
  fun j => Ideal.tanh (a * (x1 * W1 (ix2 0 j) + x2 * W2 (ix2 0 j) + B1 (ix1 j)))

/-- A hidden layer: ten activations against a `[10, 10]` weight, a bias `[10]`, scaled by `a`. -/
def hidden (a : EReal) (W : (⟨2, ![10, 10]⟩ : Shape).Idx → EReal) (B : (⟨1, ![10]⟩ : Shape).Idx → EReal)
    (L : Fin 10 → EReal) : Fin 10 → EReal :=
  fun j => Ideal.tanh (a * ((∑ i : Fin 10, L i * W (ix2 i j)) + B (ix1 j)))

/-- The output: ten activations against a `[10, 1]` weight, a bias `[1]`. -/
def out (W9 : (⟨2, ![10, 1]⟩ : Shape).Idx → EReal) (B9 : (⟨1, ![1]⟩ : Shape).Idx → EReal) (L : Fin 10 → EReal) : EReal :=
  (∑ i : Fin 10, L i * W9 (ix2 i 0)) + B9 (ix1 0)

/-- The whole network at sample `n` of the two input columns. -/
def net (x1 x2 : (⟨2, ![4000000, 1]⟩ : Shape).Idx → EReal)
    (W1 W2 : (⟨2, ![1, 10]⟩ : Shape).Idx → EReal) (B1 : (⟨1, ![10]⟩ : Shape).Idx → EReal)
    (W3 : (⟨2, ![10, 10]⟩ : Shape).Idx → EReal) (B3 : (⟨1, ![10]⟩ : Shape).Idx → EReal)
    (W4 : (⟨2, ![10, 10]⟩ : Shape).Idx → EReal) (B4 : (⟨1, ![10]⟩ : Shape).Idx → EReal)
    (W5 : (⟨2, ![10, 10]⟩ : Shape).Idx → EReal) (B5 : (⟨1, ![10]⟩ : Shape).Idx → EReal)
    (W6 : (⟨2, ![10, 10]⟩ : Shape).Idx → EReal) (B6 : (⟨1, ![10]⟩ : Shape).Idx → EReal)
    (W7 : (⟨2, ![10, 10]⟩ : Shape).Idx → EReal) (B7 : (⟨1, ![10]⟩ : Shape).Idx → EReal)
    (W8 : (⟨2, ![10, 10]⟩ : Shape).Idx → EReal) (B8 : (⟨1, ![10]⟩ : Shape).Idx → EReal)
    (alpha : (⟨1, ![1]⟩ : Shape).Idx → EReal)
    (W9 : (⟨2, ![10, 1]⟩ : Shape).Idx → EReal) (B9 : (⟨1, ![1]⟩ : Shape).Idx → EReal) (n : Fin 4000000) : EReal :=
  out W9 B9 (hidden (alpha (ix1 0)) W8 B8 (hidden (alpha (ix1 0)) W7 B7 (hidden (alpha (ix1 0)) W6 B6
    (hidden (alpha (ix1 0)) W5 B5 (hidden (alpha (ix1 0)) W4 B4 (hidden (alpha (ix1 0)) W3 B3
      (first (alpha (ix1 0)) (x1 (ix2 n 0)) (x2 (ix2 n 0)) W1 W2 B1)))))))

/-! ## A block-diagonal row against a column -/

/-- Let positions `k < N` be pairs `(group, feature)` through `e`. If the weight at `(a, b)` is
    `δ(g, a) · w b` then `∑ k, Wb k · Lb k = ∑ i, Lb (g, i) · w i`: group `g` contributes `(1 · w i) · Lb (g, i)` and
    every other group `(0 · w b) · Lb (a, b) = 0`. -/
theorem sum_blockdiag {G H N : Nat} (e : Fin G × Fin H ≃ Fin N) (Wb Lb : Fin N → EReal) (g : Fin G) (w : Fin H → EReal)
    (hW : ∀ a b, Wb (e (a, b)) = (if g = a then (1 : EReal) else 0) * w b) :
    ∑ k : Fin N, Wb k * Lb k = ∑ i : Fin H, Lb (e (g, i)) * w i := by
  rw [← Equiv.sum_comp e, Fintype.sum_prod_type, Finset.sum_eq_single g]
  · refine Finset.sum_congr rfl fun i _ => ?_
    rw [hW, if_pos rfl, one_mul, mul_comm]
  · intro a _ hne
    refine Finset.sum_eq_zero fun b _ => ?_
    rw [hW, if_neg (Ne.symm hne), zero_mul, zero_mul]
  · intro h; exact absurd (Finset.mem_univ g) h

/-- Pairs `(a, b)` with `a < G`, `b < H` as positions `a · H + b < G · H`, for sizes given as numerals. -/
def pairPos (G H N : Nat) (hN : G * H = N) (hH : 0 < H) : Fin G × Fin H ≃ Fin N where
  toFun p := ⟨p.1.val * H + p.2.val, by
    have h1 := p.1.isLt; have h2 := p.2.isLt
    calc p.1.val * H + p.2.val < p.1.val * H + H := by omega
      _ = (p.1.val + 1) * H := by ring
      _ ≤ G * H := Nat.mul_le_mul_right H h1
      _ = N := hN⟩
  invFun k := (⟨k.val / H, by
    have h : k.val < G * H := lt_of_lt_of_eq k.isLt hN.symm
    exact Nat.div_lt_of_lt_mul (by rwa [Nat.mul_comm] at h)⟩, ⟨k.val % H, Nat.mod_lt _ hH⟩)
  left_inv p := by
    have h2 := p.2.isLt
    refine Prod.ext (Fin.ext ?_) (Fin.ext ?_)
    · show (p.1.val * H + p.2.val) / H = p.1.val
      rw [Nat.add_comm, Nat.add_mul_div_right _ _ hH, Nat.div_eq_of_lt h2, Nat.zero_add]
    · show (p.1.val * H + p.2.val) % H = p.2.val
      rw [Nat.add_comm, Nat.add_mul_mod_self_right, Nat.mod_eq_of_lt h2]
  right_inv k := Fin.ext (by
    show k.val / H * H + k.val % H = k.val
    rw [Nat.mul_comm]; exact Nat.div_add_mod k.val H)

theorem pairPos_val (G H N : Nat) (hN : G * H = N) (hH : 0 < H) (a : Fin G) (b : Fin H) :
    (pairPos G H N hN hH (a, b)).val = a.val * H + b.val := rfl

end Cert.Mlp

end
-- ==== Proof.LibDotSum.lean ====
/-
  A product contracted over one axis, a bias repeated over rows, and the word for the number one, at an index.

  Three facts about arrays of extended reals read at one entry, none of which mentions a particular size. A product
  of an `M × K` by a `K × N` array contracted over the shared axis is, at `(p, q)`, the sum over `k : Fin K` of
  `A (p, k) · B (k, q)` (`sum_dot`): the contraction's index set has a single axis, so it is in bijection with that
  axis's coordinate, and the operand indices at output `(p, q)` and contraction position `k` are `(p, k)` and `(k, q)`.
  A vector of `m` column values laid out as the one row `[1, m]` and repeated over `n` rows reads, at `(p, q)`, its
  entry `q` (`bias_apply`): a repeated axis of extent one reads coordinate `0`, every other axis its own coordinate.
  The 32-bit word `0x3F800000` denotes the number one (`one_f32`). `add3` is the congruence of a sum of three terms.
-/
import Idealize.ShloMosaic.PureOps.Ideal.Laws
import Idealize.ShloMosaic.Lib.ValueIdx
import Idealize.ShloMosaic.Lib.Pipeline.Value

noncomputable section

namespace Cert.LibDotSum

open Idealize.ShloMosaic Idealize.ShloMosaic.ValueIdx

/-! ## A contraction over one axis as a sum over that axis's coordinate -/

/-- For a product of an `M × K` by a `K × N` array contracted over the shared axis, the sum over the contraction
    index set is the sum over `k : Fin K` of `A (p, k) · B (k, q)`: the contraction index is its one coordinate, and
    the operand indices at output `(p, q)` are `(p, k)` and `(k, q)` (the four hypotheses, which compute on a
    given record of dimension numbers). -/
theorem sum_dot {M K N : Nat} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (A : (⟨2, ![M, K]⟩ : Shape).Idx → EReal) (B : (⟨2, ![K, N]⟩ : Shape).Idx → EReal) (p : Fin M) (q : Fin N) :
    ∑ k : D.contr.Idx, A (D.lhsIdx (ix2 p q) k) * B (D.rhsIdx (ix2 p q) k) = ∑ k : Fin K, A (ix2 p k) * B (ix2 k q) := by
  refine Fintype.sum_equiv (contrEquiv1 D K hr hs) _ _ fun k => ?_
  have ha : D.lhsIdx (ix2 p q) k = ix2 p (contrEquiv1 D K hr hs k) := by
    funext a
    match a with
    | ⟨0, _⟩ => exact Fin.ext (hl0 _ k)
    | ⟨1, _⟩ => exact Fin.ext (hl1 _ k)
  have hb : D.rhsIdx (ix2 p q) k = ix2 (contrEquiv1 D K hr hs k) q := by
    funext a
    match a with
    | ⟨0, _⟩ => exact Fin.ext (hr0 _ k)
    | ⟨1, _⟩ => exact Fin.ext (hr1 _ k)
  rw [ha, hb]

/-- Three summands equal term by term. -/
theorem add3 {a b c a' b' c' : EReal} (h1 : a = a') (h2 : b = b') (h3 : c = c') : a + b + c = a' + b' + c' := by
  rw [h1, h2, h3]

/-! ## The word for the number one -/

/-- The word `0x3F800000` is the number one. -/
theorem one_f32 : Ideal.ofBits .f32 0x3F800000#32 = 1 := IdealRules.sign_bit.ideal_onePat .f32

/-! ## A bias repeated over rows, at an index -/

/-- A bias vector `[m]`, laid out as the one row `[1, m]` and repeated over `n` rows, reads at `(p, q)` its entry `q`. -/
theorem bias_apply {n m : Nat} {α : Type} (b : (⟨1, ![m]⟩ : Shape).Idx → α)
    (h1 : (⟨1, ![m]⟩ : Shape).BroadcastsInDim ⟨2, ![1, m]⟩ ![1])
    (h2 : (⟨2, ![1, m]⟩ : Shape).BroadcastsInDim ⟨2, ![n, m]⟩ ![0, 1]) (p : Fin n) (q : Fin m) :
    broadcastInDim ⟨2, ![n, m]⟩ ![0, 1] h2 (broadcastInDim ⟨2, ![1, m]⟩ ![1] h1 b) (ix2 p q) = b (ix1 q) := by
  refine (broadcastInDim_apply _ h2 _ (ix2 p q) (ix2 (0 : Fin 1) q) fun a => ?_).trans
    (broadcastInDim_apply _ h1 b (ix2 (0 : Fin 1) q) (ix1 q) fun a => ?_)
  · match a with
    | ⟨0, _⟩ => rfl
    | ⟨1, _⟩ =>
      show q.val = if m = 1 then 0 else q.val
      split
      · have := q.isLt; omega
      · rfl
  · match a with
    | ⟨0, _⟩ =>
      show q.val = if m = 1 then 0 else q.val
      split
      · have := q.isLt; omega
      · rfl

end Cert.LibDotSum

end
-- ==== Proof.Body.lean ====
/-
  One tile's arithmetic, read at an entry.

  At a grid point the body holds twenty-five samples per column: its activations are a `[250, 3200]` array whose
  row `g · 10 + j` is feature `j` of group `g`, and every weight is `I₂₅ ⊗ Wᵀ`. A layer is
  `tanh (scale · (product + bias))`, the product contracted over the 250 (for the first layer 25) rows of the
  previous activations. Read at row `g · 10 + j`, column `c`, the product is a sum over `k` of
  `(δ(g, a) · W (i, j)) · L (k, c)` with `k = a · 10 + i`; only group `g` survives, leaving
  `∑ i, L (g · 10 + i, c) · W (i, j)` — the dense layer of the one sample that sits in group `g`, column `c`.
  So if the previous activations at column `c` are, on group `g`'s rows, a sample's activations `f`, the layer's are
  `hidden a W B f` on the same rows: the groups never mix, and the tile is the per-sample network at every entry.
  A change of float format between the layers is the identity on extended reals.
-/
import proofs.«177182_j41609643164201_2_alg».proof.Proof.Gen.KernelIdeal.Skeleton
import proofs.«177182_j41609643164201_2_alg».proof.Proof.MlpSpec
import proofs.«177182_j41609643164201_2_alg».proof.Proof.LibDotSum
import Idealize.ShloMosaic.PureOps.Ideal.Laws
import Idealize.ShloMosaic.Lib.ValueIdx
import Idealize.ShloMosaic.Lib.Pipeline.Value

set_option maxRecDepth 16384

noncomputable section

namespace Cert.KernelIdeal.Body

open Cert.KernelIdeal Cert.KernelIdeal.Gen Idealize.ShloMosaic Idealize.ShloMosaic.ValueIdx Cert.Mlp

/-! ## What it means for an array to be a folded weight or bias -/

/-- `A` is `I₂₅ ⊗ Wᵀ` for a weight with one row: row `g · 10 + j`, column `a` is `δ(g, a) · W (0, j)`. -/
def IsKronFirst (A : S250x25.Idx → EReal) (W : S1x10.Idx → EReal) : Prop :=
  ∀ (g a : Fin 25) (j : Fin 10) (r : Fin 250), r.val = g.val * 10 + j.val →
    A (ix2 r a) = (if g = a then (1 : EReal) else 0) * W (ix2 0 j)

/-- `A` is `I₂₅ ⊗ Wᵀ` for a square weight: row `g · 10 + j`, column `a · 10 + i` is `δ(g, a) · W (i, j)`. -/
def IsKronMid (A : S250x250.Idx → EReal) (W : S10x10.Idx → EReal) : Prop :=
  ∀ (g a : Fin 25) (j i : Fin 10) (r k : Fin 250), r.val = g.val * 10 + j.val → k.val = a.val * 10 + i.val →
    A (ix2 r k) = (if g = a then (1 : EReal) else 0) * W (ix2 i j)

/-- `A` is `I₂₅ ⊗ Wᵀ` for a weight with one column: row `g`, column `a · 10 + i` is `δ(g, a) · W (i, 0)`. -/
def IsKronLast (A : S25x250.Idx → EReal) (W : S10x1.Idx → EReal) : Prop :=
  ∀ (g a : Fin 25) (i : Fin 10) (k : Fin 250), k.val = a.val * 10 + i.val →
    A (ix2 g k) = (if g = a then (1 : EReal) else 0) * W (ix2 i 0)

/-- `b` repeats the bias `B` over the groups: row `g · 10 + j` is `B j`. -/
def IsTiled (b : S250x1.Idx → EReal) (B : S10.Idx → EReal) : Prop :=
  ∀ (g : Fin 25) (j : Fin 10) (r : Fin 250), r.val = g.val * 10 + j.val → b (ix2 r 0) = B (ix1 j)

/-! ## The three products at an entry -/

/-- A diagonal row against a column: only the entry on the diagonal survives. -/
theorem sum_diag {G : Nat} (Wb Lb : Fin G → EReal) (g : Fin G) (w : EReal)
    (hW : ∀ a, Wb a = (if g = a then (1 : EReal) else 0) * w) : ∑ k : Fin G, Wb k * Lb k = Lb g * w := by
  rw [Finset.sum_eq_single g]
  · rw [hW, if_pos rfl, one_mul, mul_comm]
  · intro a _ hne
    rw [hW, if_neg (Ne.symm hne), zero_mul, zero_mul]
  · intro h; exact absurd (Finset.mem_univ g) h

theorem prod_first (A : FVec Ideal S250x25 .bf16) (X : FVec Ideal S25x3200 .bf16) (r : Fin 250) (c : Fin 3200) :
    matmul dot_S250x25_S25x3200_S250x3200_1_0_0_1_n_n none A X (constant S250x3200 .f32 0x00000000#32) (ix2 r c)
      = ∑ k : Fin 25, A (ix2 r k) * X (ix2 k c) :=
  (Ideal.matmul_constant_zero_apply dot_S250x25_S25x3200_S250x3200_1_0_0_1_n_n none A X (ix2 r c)).trans
    (Cert.LibDotSum.sum_dot dot_S250x25_S25x3200_S250x3200_1_0_0_1_n_n rfl rfl
      (fun _ _ => rfl) (fun _ _ => rfl) (fun _ _ => rfl) (fun _ _ => rfl) A X r c)

theorem prod_mid (A : FVec Ideal S250x250 .bf16) (L : FVec Ideal S250x3200 .bf16) (r : Fin 250) (c : Fin 3200) :
    matmul dot_S250x250_S250x3200_S250x3200_1_0_0_1_n_n none A L (constant S250x3200 .f32 0x00000000#32) (ix2 r c)
      = ∑ k : Fin 250, A (ix2 r k) * L (ix2 k c) :=
  (Ideal.matmul_constant_zero_apply dot_S250x250_S250x3200_S250x3200_1_0_0_1_n_n none A L (ix2 r c)).trans
    (Cert.LibDotSum.sum_dot dot_S250x250_S250x3200_S250x3200_1_0_0_1_n_n rfl rfl
      (fun _ _ => rfl) (fun _ _ => rfl) (fun _ _ => rfl) (fun _ _ => rfl) A L r c)

theorem prod_last (A : FVec Ideal S25x250 .bf16) (L : FVec Ideal S250x3200 .bf16) (g : Fin 25) (c : Fin 3200) :
    matmul dot_S25x250_S250x3200_S25x3200_1_0_0_1_n_n none A L (constant S25x3200 .f32 0x00000000#32) (ix2 g c)
      = ∑ k : Fin 250, A (ix2 g k) * L (ix2 k c) :=
  (Ideal.matmul_constant_zero_apply dot_S25x250_S250x3200_S25x3200_1_0_0_1_n_n none A L (ix2 g c)).trans
    (Cert.LibDotSum.sum_dot dot_S25x250_S250x3200_S25x3200_1_0_0_1_n_n rfl rfl
      (fun _ _ => rfl) (fun _ _ => rfl) (fun _ _ => rfl) (fun _ _ => rfl) A L g c)

/-- Rows of the folded activations as (group, feature) pairs. -/
abbrev rows : Fin 25 × Fin 10 ≃ Fin 250 := pairPos 25 10 250 rfl (by decide)

/-! ## The layers -/

/-- The first layer of a tile: two products against the two input blocks, the bias column, the scale, `tanh`. -/
def layerFirst (al : FVec Ideal S1x1 .f32) (A1 A2 : FVec Ideal S250x25 .bf16) (b : FVec Ideal S250x1 .f32)
    (X1 X2 : FVec Ideal S25x3200 .bf16) : FVec Ideal S250x3200 .bf16 :=
  truncf .bf16 (tanh (mulf (broadcastTo S250x3200 al broadcasts_S1x1_S250x3200)
    (addf (addf (matmul dot_S250x25_S25x3200_S250x3200_1_0_0_1_n_n none A1 X1 (constant S250x3200 .f32 0x00000000#32))
        (matmul dot_S250x25_S25x3200_S250x3200_1_0_0_1_n_n none A2 X2 (constant S250x3200 .f32 0x00000000#32)))
      (broadcastTo S250x3200 b broadcasts_S250x1_S250x3200)))) bitsLt_bf16_f32

/-- A hidden layer of a tile. -/
def layerMid (al : FVec Ideal S1x1 .f32) (A : FVec Ideal S250x250 .bf16) (b : FVec Ideal S250x1 .f32)
    (L : FVec Ideal S250x3200 .bf16) : FVec Ideal S250x3200 .bf16 :=
  truncf .bf16 (tanh (mulf (broadcastTo S250x3200 al broadcasts_S1x1_S250x3200)
    (addf (matmul dot_S250x250_S250x3200_S250x3200_1_0_0_1_n_n none A L (constant S250x3200 .f32 0x00000000#32))
      (broadcastTo S250x3200 b broadcasts_S250x1_S250x3200)))) bitsLt_bf16_f32

/-- The output layer of a tile. -/
def layerOut (A : FVec Ideal S25x250 .bf16) (b : FVec Ideal S25x1 .f32) (L : FVec Ideal S250x3200 .bf16) :
    FVec Ideal S25x3200 .f32 :=
  addf (matmul dot_S25x250_S250x3200_S25x3200_1_0_0_1_n_n none A L (constant S25x3200 .f32 0x00000000#32))
    (broadcastTo S25x3200 b broadcasts_S25x1_S25x3200)

theorem scale_at (al : FVec Ideal S1x1 .f32) (r : Fin 250) (c : Fin 3200) :
    broadcastTo S250x3200 al broadcasts_S1x1_S250x3200 (ix2 r c) = al (ix2 0 0) :=
  broadcastTo_apply al broadcasts_S1x1_S250x3200 (ix2 r c) (ix2 0 0) fun d => by
    match d with
    | ⟨0, _⟩ => rfl
    | ⟨1, _⟩ => rfl

theorem bias_at (b : FVec Ideal S250x1 .f32) (r : Fin 250) (c : Fin 3200) :
    broadcastTo S250x3200 b broadcasts_S250x1_S250x3200 (ix2 r c) = b (ix2 r 0) :=
  broadcastTo_apply b broadcasts_S250x1_S250x3200 (ix2 r c) (ix2 r 0) fun d => by
    match d with
    | ⟨0, _⟩ => rfl
    | ⟨1, _⟩ => rfl

theorem outbias_at (b : FVec Ideal S25x1 .f32) (g : Fin 25) (c : Fin 3200) :
    broadcastTo S25x3200 b broadcasts_S25x1_S25x3200 (ix2 g c) = b (ix2 g 0) :=
  broadcastTo_apply b broadcasts_S25x1_S25x3200 (ix2 g c) (ix2 g 0) fun d => by
    match d with
    | ⟨0, _⟩ => rfl
    | ⟨1, _⟩ => rfl

/-- Row `g · 10 + j`, column `c` of the first layer is feature `j` of the first layer of the sample whose two
    inputs sit at `(g, c)` of the input blocks. -/
theorem layerFirst_apply (al : FVec Ideal S1x1 .f32) (A1 A2 : FVec Ideal S250x25 .bf16) (b : FVec Ideal S250x1 .f32)
    (X1 X2 : FVec Ideal S25x3200 .bf16) (a : EReal) (W1 W2 : S1x10.Idx → EReal) (B1 : S10.Idx → EReal)
    (g : Fin 25) (c : Fin 3200) (j : Fin 10) (r : Fin 250) (hr : r.val = g.val * 10 + j.val)
    (ha : al (ix2 0 0) = a) (h1 : IsKronFirst A1 W1) (h2 : IsKronFirst A2 W2) (hb : IsTiled b B1) :
    layerFirst al A1 A2 b X1 X2 (ix2 r c) = first a (X1 (ix2 g c)) (X2 (ix2 g c)) W1 W2 B1 j := by
  unfold layerFirst first
  rw [truncf_apply]
  show Ideal.tanh (broadcastTo S250x3200 al broadcasts_S1x1_S250x3200 (ix2 r c)
    * ((matmul dot_S250x25_S25x3200_S250x3200_1_0_0_1_n_n none A1 X1 (constant S250x3200 .f32 0x00000000#32) (ix2 r c)
        + matmul dot_S250x25_S25x3200_S250x3200_1_0_0_1_n_n none A2 X2 (constant S250x3200 .f32 0x00000000#32) (ix2 r c))
      + broadcastTo S250x3200 b broadcasts_S250x1_S250x3200 (ix2 r c))) = _
  rw [scale_at, ha, prod_first, prod_first, bias_at, hb g j r hr,
    sum_diag (fun k => A1 (ix2 r k)) (fun k => X1 (ix2 k c)) g (W1 (ix2 0 j)) (fun k => h1 g k j r hr),
    sum_diag (fun k => A2 (ix2 r k)) (fun k => X2 (ix2 k c)) g (W2 (ix2 0 j)) (fun k => h2 g k j r hr)]

/-- Row `g · 10 + j`, column `c` of a hidden layer is feature `j` of the dense layer applied to the
    activations `f` that the previous layer holds on group `g`'s rows of column `c`. -/
theorem layerMid_apply (al : FVec Ideal S1x1 .f32) (A : FVec Ideal S250x250 .bf16) (b : FVec Ideal S250x1 .f32)
    (L : FVec Ideal S250x3200 .bf16) (a : EReal) (W : S10x10.Idx → EReal) (B : S10.Idx → EReal) (f : Fin 10 → EReal)
    (g : Fin 25) (c : Fin 3200) (j : Fin 10) (r : Fin 250) (hr : r.val = g.val * 10 + j.val)
    (ha : al (ix2 0 0) = a) (hA : IsKronMid A W) (hb : IsTiled b B)
    (hL : ∀ (i : Fin 10) (k : Fin 250), k.val = g.val * 10 + i.val → L (ix2 k c) = f i) :
    layerMid al A b L (ix2 r c) = Cert.Mlp.hidden a W B f j := by
  unfold layerMid Cert.Mlp.hidden
  rw [truncf_apply]
  show Ideal.tanh (broadcastTo S250x3200 al broadcasts_S1x1_S250x3200 (ix2 r c)
    * (matmul dot_S250x250_S250x3200_S250x3200_1_0_0_1_n_n none A L (constant S250x3200 .f32 0x00000000#32) (ix2 r c)
      + broadcastTo S250x3200 b broadcasts_S250x1_S250x3200 (ix2 r c))) = _
  rw [scale_at, ha, prod_mid, bias_at, hb g j r hr,
    sum_blockdiag rows (fun k => A (ix2 r k)) (fun k => L (ix2 k c)) g (fun i => W (ix2 i j))
      (fun a' i => hA g a' j i r (rows (a', i)) hr (pairPos_val 25 10 250 rfl (by decide) a' i))]
  congr 3
  exact Finset.sum_congr rfl fun i _ => by rw [hL i (rows (g, i)) (pairPos_val 25 10 250 rfl (by decide) g i)]

/-- Row `g`, column `c` of the output layer is the output of the activations `f` on group `g`'s rows. -/
theorem layerOut_apply (A : FVec Ideal S25x250 .bf16) (b : FVec Ideal S25x1 .f32) (L : FVec Ideal S250x3200 .bf16)
    (W9 : S10x1.Idx → EReal) (B9 : S1.Idx → EReal) (f : Fin 10 → EReal) (g : Fin 25) (c : Fin 3200)
    (hA : IsKronLast A W9) (hb : b (ix2 g 0) = B9 (ix1 0))
    (hL : ∀ (i : Fin 10) (k : Fin 250), k.val = g.val * 10 + i.val → L (ix2 k c) = f i) :
    layerOut A b L (ix2 g c) = out W9 B9 f := by
  unfold layerOut out
  show matmul dot_S25x250_S250x3200_S25x3200_1_0_0_1_n_n none A L (constant S25x3200 .f32 0x00000000#32) (ix2 g c)
    + broadcastTo S25x3200 b broadcasts_S25x1_S25x3200 (ix2 g c) = _
  rw [prod_last, outbias_at, hb,
    sum_blockdiag rows (fun k => A (ix2 g k)) (fun k => L (ix2 k c)) g (fun i => W9 (ix2 i 0))
      (fun a' i => hA g a' i (rows (a', i)) (pairPos_val 25 10 250 rfl (by decide) a' i))]
  congr 1
  exact Finset.sum_congr rfl fun i _ => by rw [hL i (rows (g, i)) (pairPos_val 25 10 250 rfl (by decide) g i)]

/-! ## The tile -/

/-- The value a grid point stores, before its leading unit axis is added: the eight layers composed, each weight and
    bias block as loaded, the two input blocks with their leading unit axis dropped. -/
def tile (x0 x1 : Vec Ideal S1x25x3200 .f32) (x2 x3 : Vec Ideal S250x25 .bf16) (x4 : Vec Ideal S250x1 .f32)
    (x5 : Vec Ideal S250x250 .bf16) (x6 : Vec Ideal S250x1 .f32) (x7 : Vec Ideal S250x250 .bf16) (x8 : Vec Ideal S250x1 .f32)
    (x9 : Vec Ideal S250x250 .bf16) (x10 : Vec Ideal S250x1 .f32) (x11 : Vec Ideal S250x250 .bf16) (x12 : Vec Ideal S250x1 .f32)
    (x13 : Vec Ideal S250x250 .bf16) (x14 : Vec Ideal S250x1 .f32) (x15 : Vec Ideal S250x250 .bf16) (x16 : Vec Ideal S250x1 .f32)
    (x17 : Vec Ideal S1x1 .f32) (x18 : Vec Ideal S25x250 .bf16) (x19 : Vec Ideal S25x1 .f32) : FVec Ideal S25x3200 .f32 :=
  layerOut (shapeCast S25x250 x18 shapeCasts_S25x250_S25x250) (shapeCast S25x1 x19 shapeCasts_S25x1_S25x1)
    (layerMid (shapeCast S1x1 x17 shapeCasts_S1x1_S1x1) (shapeCast S250x250 x15 shapeCasts_S250x250_S250x250) (shapeCast S250x1 x16 shapeCasts_S250x1_S250x1)
    (layerMid (shapeCast S1x1 x17 shapeCasts_S1x1_S1x1) (shapeCast S250x250 x13 shapeCasts_S250x250_S250x250) (shapeCast S250x1 x14 shapeCasts_S250x1_S250x1)
    (layerMid (shapeCast S1x1 x17 shapeCasts_S1x1_S1x1) (shapeCast S250x250 x11 shapeCasts_S250x250_S250x250) (shapeCast S250x1 x12 shapeCasts_S250x1_S250x1)
    (layerMid (shapeCast S1x1 x17 shapeCasts_S1x1_S1x1) (shapeCast S250x250 x9 shapeCasts_S250x250_S250x250) (shapeCast S250x1 x10 shapeCasts_S250x1_S250x1)
    (layerMid (shapeCast S1x1 x17 shapeCasts_S1x1_S1x1) (shapeCast S250x250 x7 shapeCasts_S250x250_S250x250) (shapeCast S250x1 x8 shapeCasts_S250x1_S250x1)
    (layerMid (shapeCast S1x1 x17 shapeCasts_S1x1_S1x1) (shapeCast S250x250 x5 shapeCasts_S250x250_S250x250) (shapeCast S250x1 x6 shapeCasts_S250x1_S250x1)
    (layerFirst (shapeCast S1x1 x17 shapeCasts_S1x1_S1x1) (shapeCast S250x25 x2 shapeCasts_S250x25_S250x25) (shapeCast S250x25 x3 shapeCasts_S250x25_S250x25)
      (shapeCast S250x1 x4 shapeCasts_S250x1_S250x1)
      (truncf .bf16 (shapeCast S25x3200 x0 shapeCasts_S1x25x3200_S25x3200) bitsLt_bf16_f32)
      (truncf .bf16 (shapeCast S25x3200 x1 shapeCasts_S1x25x3200_S25x3200) bitsLt_bf16_f32))))))))

/-- The body's one stored payload is the tile with a leading unit axis added. -/
theorem pay_eq_tile (x0 x1 : Vec Ideal S1x25x3200 .f32) (x2 x3 : Vec Ideal S250x25 .bf16) (x4 : Vec Ideal S250x1 .f32)
    (x5 : Vec Ideal S250x250 .bf16) (x6 : Vec Ideal S250x1 .f32) (x7 : Vec Ideal S250x250 .bf16) (x8 : Vec Ideal S250x1 .f32)
    (x9 : Vec Ideal S250x250 .bf16) (x10 : Vec Ideal S250x1 .f32) (x11 : Vec Ideal S250x250 .bf16) (x12 : Vec Ideal S250x1 .f32)
    (x13 : Vec Ideal S250x250 .bf16) (x14 : Vec Ideal S250x1 .f32) (x15 : Vec Ideal S250x250 .bf16) (x16 : Vec Ideal S250x1 .f32)
    (x17 : Vec Ideal S1x1 .f32) (x18 : Vec Ideal S25x250 .bf16) (x19 : Vec Ideal S25x1 .f32) :
    k0_pay1 (F := Ideal) (k0_pay2 x17) (k0_pay5 (k0_pay2 x17) (k0_pay3 x0 x1 x17 x2 x3 x4 x5 x6) (k0_pay4 x7) x8 x9 x10 x11 x12 x13 x14) x15 x16 x18 x19
      = shapeCast S1x25x3200 (tile x0 x1 x2 x3 x4 x5 x6 x7 x8 x9 x10 x11 x12 x13 x14 x15 x16 x17 x18 x19) shapeCasts_S25x3200_S1x25x3200 := rfl

/-- An input block with its leading unit axis dropped reads `(g, c)` at `(0, g, c)`. -/
theorem input_at (x : Vec Ideal S1x25x3200 .f32) (g : Fin 25) (c : Fin 3200) :
    (truncf .bf16 (shapeCast S25x3200 x shapeCasts_S1x25x3200_S25x3200) bitsLt_bf16_f32 : FVec Ideal S25x3200 .bf16) (ix2 g c)
      = x (ix3 0 g c) := by
  rw [truncf_apply]
  refine shapeCast_apply x shapeCasts_S1x25x3200_S25x3200 (ix2 g c) (ix3 0 g c) ?_
  rw [Shape.rowMajor_val_three, Shape.rowMajor_val_two]
  show (0 * 25 + g.val) * 3200 + c.val = g.val * 3200 + c.val
  omega

/-- THE TILE AT AN ENTRY: when the loaded blocks are the folded weights and biases of `W₁ … B₉` and the scale block
    holds `a`, entry `(g, c)` of the tile is the network applied to the pair of inputs at `(0, g, c)` of the two
    input blocks. -/
theorem tile_apply (x0 x1 : Vec Ideal S1x25x3200 .f32) (x2 x3 : Vec Ideal S250x25 .bf16) (x4 : Vec Ideal S250x1 .f32)
    (x5 : Vec Ideal S250x250 .bf16) (x6 : Vec Ideal S250x1 .f32) (x7 : Vec Ideal S250x250 .bf16) (x8 : Vec Ideal S250x1 .f32)
    (x9 : Vec Ideal S250x250 .bf16) (x10 : Vec Ideal S250x1 .f32) (x11 : Vec Ideal S250x250 .bf16) (x12 : Vec Ideal S250x1 .f32)
    (x13 : Vec Ideal S250x250 .bf16) (x14 : Vec Ideal S250x1 .f32) (x15 : Vec Ideal S250x250 .bf16) (x16 : Vec Ideal S250x1 .f32)
    (x17 : Vec Ideal S1x1 .f32) (x18 : Vec Ideal S25x250 .bf16) (x19 : Vec Ideal S25x1 .f32)
    (a : EReal) (W1 W2 : S1x10.Idx → EReal) (B1 : S10.Idx → EReal)
    (W3 : S10x10.Idx → EReal) (B3 : S10.Idx → EReal) (W4 : S10x10.Idx → EReal) (B4 : S10.Idx → EReal)
    (W5 : S10x10.Idx → EReal) (B5 : S10.Idx → EReal) (W6 : S10x10.Idx → EReal) (B6 : S10.Idx → EReal)
    (W7 : S10x10.Idx → EReal) (B7 : S10.Idx → EReal) (W8 : S10x10.Idx → EReal) (B8 : S10.Idx → EReal)
    (W9 : S10x1.Idx → EReal) (B9 : S1.Idx → EReal)
    (ha : x17 (ix2 0 0) = a) (h2 : IsKronFirst x2 W1) (h3 : IsKronFirst x3 W2) (h4 : IsTiled x4 B1)
    (h5 : IsKronMid x5 W3) (h6 : IsTiled x6 B3) (h7 : IsKronMid x7 W4) (h8 : IsTiled x8 B4)
    (h9 : IsKronMid x9 W5) (h10 : IsTiled x10 B5) (h11 : IsKronMid x11 W6) (h12 : IsTiled x12 B6)
    (h13 : IsKronMid x13 W7) (h14 : IsTiled x14 B7) (h15 : IsKronMid x15 W8) (h16 : IsTiled x16 B8)
    (h18 : IsKronLast x18 W9) (h19 : ∀ g : Fin 25, x19 (ix2 g 0) = B9 (ix1 0)) (g : Fin 25) (c : Fin 3200) :
    tile x0 x1 x2 x3 x4 x5 x6 x7 x8 x9 x10 x11 x12 x13 x14 x15 x16 x17 x18 x19 (ix2 g c)
      = out W9 B9 (Cert.Mlp.hidden a W8 B8 (Cert.Mlp.hidden a W7 B7 (Cert.Mlp.hidden a W6 B6 (Cert.Mlp.hidden a W5 B5
          (Cert.Mlp.hidden a W4 B4 (Cert.Mlp.hidden a W3 B3 (first a (x0 (ix3 0 g c)) (x1 (ix3 0 g c)) W1 W2 B1))))))) := by
  unfold tile
  simp only [shapeCast_self]
  refine layerOut_apply _ _ _ W9 B9 _ g c h18 (h19 g) (fun i k hk => ?_)
  refine layerMid_apply _ _ _ _ a W8 B8 _ g c i k hk ha h15 h16 (fun i k hk => ?_)
  refine layerMid_apply _ _ _ _ a W7 B7 _ g c i k hk ha h13 h14 (fun i k hk => ?_)
  refine layerMid_apply _ _ _ _ a W6 B6 _ g c i k hk ha h11 h12 (fun i k hk => ?_)
  refine layerMid_apply _ _ _ _ a W5 B5 _ g c i k hk ha h9 h10 (fun i k hk => ?_)
  refine layerMid_apply _ _ _ _ a W4 B4 _ g c i k hk ha h7 h8 (fun i k hk => ?_)
  refine layerMid_apply _ _ _ _ a W3 B3 _ g c i k hk ha h5 h6 (fun i k hk => ?_)
  refine (layerFirst_apply _ _ _ _ _ _ a W1 W2 B1 g c i k hk ha h2 h3 h4).trans ?_
  rw [input_at, input_at]

end Cert.KernelIdeal.Body

end
-- ==== Proof.KernelValue.lean ====
/-
  What the kernel program computes: the network at every sample.

  Grid point `t` stages tile `t` of the two folded input columns and the whole of every folded weight and bias,
  and writes back tile `t` of the result `[50, 25, 3200]`. By the tile theorem, entry `(g, cc)` of what it writes is
  the network applied to sample `(t · 25 + g) · 3200 + cc` — the sample whose two inputs sit at `(t, g, cc)` of the
  folded columns. The fifty tiles cover the result array, one tile per value of the leading coordinate, so after the
  region the array holds the network at sample `(i₀ · 25 + i₁) · 3200 + i₂` at every index `i`. The last host line
  views it as a column `[4000000, 1]`: row `n` reads the array at the index of row-major position `n`, which is
  the network at sample `n`.
-/
import proofs.«177182_j41609643164201_2_alg».proof.Proof.Gen.KernelIdeal.Frame
import proofs.«177182_j41609643164201_2_alg».proof.Proof.HostGlue
import proofs.«177182_j41609643164201_2_alg».proof.Proof.LaunchedA
import proofs.«177182_j41609643164201_2_alg».proof.Proof.LaunchedB
import proofs.«177182_j41609643164201_2_alg».proof.Proof.LaunchedC
import proofs.«177182_j41609643164201_2_alg».proof.Proof.Body
import Idealize.ShloMosaic.Lib.StableHlo.Run
import Idealize.ShloMosaic.Lib.Pipeline.Value

set_option maxRecDepth 16384

noncomputable section

namespace Cert.KernelIdeal.Net

open Cert.KernelIdeal Cert.KernelIdeal.Gen Cert.KernelIdeal.Glue Cert.KernelIdeal.Body Idealize.ShloMosaic Idealize.ShloMosaic.TcCoe
  Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-! ## The network of the arguments -/

/-- The network of core `c`'s twenty argument arrays, at a sample. -/
def netOf (c : Dev nD) : Fin 4000000 → EReal :=
  Cert.Mlp.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))

/-- The sample at index `i` of the `[50, 25, 3200]` view: its row-major position. -/
def sampleOf (i : S50x25x3200.Idx) : Fin 4000000 :=
  ⟨((i 0).val * 25 + (i 1).val) * 3200 + (i 2).val, by
    have h0 : (i 0).val < 50 := (i 0).isLt
    have h1 : (i 1).val < 25 := (i 1).isLt
    have h2 : (i 2).val < 3200 := (i 2).isLt
    omega⟩

/-- What the region's result array ends holding. -/
def tiles (c : Dev nD) : S50x25x3200.Idx → EReal := fun i => netOf m c (sampleOf i)

/-! ## Where each window's block sits in its array -/

theorem hz2 : (![0, 0] : Fin 2 → Nat) = fun _ => 0 := funext fun a => by fin_cases a <;> rfl
theorem hz3 : (![0, 0, 0] : Fin 3 → Nat) = fun _ => 0 := funext fun a => by fin_cases a <;> rfl

theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx1 : ∀ t : Fin cfg0.N, win0_1.index t (0 : Fin 3) = t.val ∧ win0_1.index t (1 : Fin 3) = 0 ∧ win0_1.index t (2 : Fin 3) = 0 :=
  (by decide +kernel : ∀ t : Fin grid0.N, _)
theorem idx20 : ∀ t : Fin cfg0.N, win0_20.index t (0 : Fin 3) = t.val ∧ win0_20.index t (1 : Fin 3) = 0 ∧ win0_20.index t (2 : Fin 3) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)
theorem idx11 : ∀ t : Fin cfg0.N, win0_11.index t (0 : Fin 2) = 0 ∧ win0_11.index t (1 : Fin 2) = 0 :=
  (by decide +kernel : ∀ t : Fin grid0.N, _)
theorem idx12 : ∀ t : Fin cfg0.N, win0_12.index t (0 : Fin 2) = 0 ∧ win0_12.index t (1 : Fin 2) = 0 :=
  (by decide +kernel : ∀ t : Fin grid0.N, _)
theorem idx13 : ∀ t : Fin cfg0.N, win0_13.index t (0 : Fin 2) = 0 ∧ win0_13.index t (1 : Fin 2) = 0 :=
  (by decide +kernel : ∀ t : Fin grid0.N, _)
theorem idx14 : ∀ t : Fin cfg0.N, win0_14.index t (0 : Fin 2) = 0 ∧ win0_14.index t (1 : Fin 2) = 0 :=
  (by decide +kernel : ∀ t : Fin grid0.N, _)
theorem idx15 : ∀ t : Fin cfg0.N, win0_15.index t (0 : Fin 2) = 0 ∧ win0_15.index t (1 : Fin 2) = 0 :=
  (by decide +kernel : ∀ t : Fin grid0.N, _)
theorem idx16 : ∀ t : Fin cfg0.N, win0_16.index t (0 : Fin 2) = 0 ∧ win0_16.index t (1 : Fin 2) = 0 :=
  (by decide +kernel : ∀ t : Fin grid0.N, _)
theorem idx17 : ∀ t : Fin cfg0.N, win0_17.index t (0 : Fin 2) = 0 ∧ win0_17.index t (1 : Fin 2) = 0 :=
  (by decide +kernel : ∀ t : Fin grid0.N, _)
theorem idx18 : ∀ t : Fin cfg0.N, win0_18.index t (0 : Fin 2) = 0 ∧ win0_18.index t (1 : Fin 2) = 0 :=
  (by decide +kernel : ∀ t : Fin grid0.N, _)
theorem idx19 : ∀ t : Fin cfg0.N, win0_19.index t (0 : Fin 2) = 0 ∧ win0_19.index t (1 : Fin 2) = 0 :=
  (by decide +kernel : ∀ t : Fin grid0.N, _)

/-- Entry `(0, g, cc)` of input window 0's block at point `t` is sample `(t · 25 + g) · 3200 + cc` of its column. -/
theorem blk0 (c : Dev nD) (t : Fin cfg0.N) (g : Fin 25) (cc : Fin 3200) (n : Fin 4000000)
    (hn : n.val = (t.val * 25 + g.val) * 3200 + cc.val) :
    (iblk m c 0 t : S1x25x3200.Idx → EReal) (ix3 0 g cc) = (m ((c : Thread nD τ).loc main_arg0)) (ix2 n 0) := by
  have ht : t.val < 50 := lt_of_lt_of_eq t.isLt N_0
  show V m c main_v1 (((cfg0.win 0).blk t).view.emb (ix3 0 g cc)) = _
  have h : (((cfg0.win 0).blk t).view.emb (ix3 (0 : Fin 1) g cc) : S50x25x3200.Idx) = ix3 (⟨t.val, ht⟩ : Fin 50) g cc := by
    obtain ⟨e0, e1, e2⟩ := idx0 t
    funext a; apply Fin.ext
    match a with
    | ⟨0, _⟩ => show win0_0.index t (0 : Fin 3) * 1 + 1 * 0 = t.val; omega
    | ⟨1, _⟩ => show win0_0.index t (1 : Fin 3) * 25 + 1 * g.val = g.val; omega
    | ⟨2, _⟩ => show win0_0.index t (2 : Fin 3) * 3200 + 1 * cc.val = cc.val; omega
  rw [h, launched0 m c]
  exact foldInput_apply _ ⟨t.val, ht⟩ g cc n hn

/-- Entry `(0, g, cc)` of input window 1's block at point `t` is sample `(t · 25 + g) · 3200 + cc` of its column. -/
theorem blk1 (c : Dev nD) (t : Fin cfg0.N) (g : Fin 25) (cc : Fin 3200) (n : Fin 4000000)
    (hn : n.val = (t.val * 25 + g.val) * 3200 + cc.val) :
    (iblk m c 1 t : S1x25x3200.Idx → EReal) (ix3 0 g cc) = (m ((c : Thread nD τ).loc main_arg1)) (ix2 n 0) := by
  have ht : t.val < 50 := lt_of_lt_of_eq t.isLt N_0
  show V m c main_v3 (((cfg0.win 1).blk t).view.emb (ix3 0 g cc)) = _
  have h : (((cfg0.win 1).blk t).view.emb (ix3 (0 : Fin 1) g cc) : S50x25x3200.Idx) = ix3 (⟨t.val, ht⟩ : Fin 50) g cc := by
    obtain ⟨e0, e1, e2⟩ := idx1 t
    funext a; apply Fin.ext
    match a with
    | ⟨0, _⟩ => show win0_1.index t (0 : Fin 3) * 1 + 1 * 0 = t.val; omega
    | ⟨1, _⟩ => show win0_1.index t (1 : Fin 3) * 25 + 1 * g.val = g.val; omega
    | ⟨2, _⟩ => show win0_1.index t (2 : Fin 3) * 3200 + 1 * cc.val = cc.val; omega
  rw [h, launched1 m c]
  exact foldInput_apply _ ⟨t.val, ht⟩ g cc n hn

/-- Window 2 never moves: its block at every point is its whole array. -/
theorem blk2 (c : Dev nD) (t : Fin cfg0.N) : (iblk m c 2 t : S250x25.Idx → EReal) = kronFirst eye (m ((c : Thread nD τ).loc main_arg2)) := by
  rw [← launched2 m c]
  funext y
  show V m c main_v12 (((cfg0.win 2).blk t).view.emb y) = V m c main_v12 y
  have h : (((cfg0.win 2).blk t).view.emb y : S250x25.Idx) = y := by
    obtain ⟨e0, e1⟩ := idx2 t
    funext a; apply Fin.ext
    match a with
    | ⟨0, _⟩ => show win0_2.index t (0 : Fin 2) * 250 + 1 * (y 0).val = (y 0).val; omega
    | ⟨1, _⟩ => show win0_2.index t (1 : Fin 2) * 25 + 1 * (y 1).val = (y 1).val; omega
  rw [h]

/-- Window 3 never moves: its block at every point is its whole array. -/
theorem blk3 (c : Dev nD) (t : Fin cfg0.N) : (iblk m c 3 t : S250x25.Idx → EReal) = kronFirst eye (m ((c : Thread nD τ).loc main_arg3)) := by
  rw [← launched3 m c]
  funext y
  show V m c main_v15 (((cfg0.win 3).blk t).view.emb y) = V m c main_v15 y
  have h : (((cfg0.win 3).blk t).view.emb y : S250x25.Idx) = y := by
    obtain ⟨e0, e1⟩ := idx3 t
    funext a; apply Fin.ext
    match a with
    | ⟨0, _⟩ => show win0_3.index t (0 : Fin 2) * 250 + 1 * (y 0).val = (y 0).val; omega
    | ⟨1, _⟩ => show win0_3.index t (1 : Fin 2) * 25 + 1 * (y 1).val = (y 1).val; omega
  rw [h]

/-- Window 4 never moves: its block at every point is its whole array. -/
theorem blk4 (c : Dev nD) (t : Fin cfg0.N) : (iblk m c 4 t : S250x1.Idx → EReal) = tileBias (m ((c : Thread nD τ).loc main_arg4)) := by
  rw [← launched4 m c]
  funext y
  show V m c main_v19 (((cfg0.win 4).blk t).view.emb y) = V m c main_v19 y
  have h : (((cfg0.win 4).blk t).view.emb y : S250x1.Idx) = y := by
    obtain ⟨e0, e1⟩ := idx4 t
    funext a; apply Fin.ext
    match a with
    | ⟨0, _⟩ => show win0_4.index t (0 : Fin 2) * 250 + 1 * (y 0).val = (y 0).val; omega
    | ⟨1, _⟩ => show win0_4.index t (1 : Fin 2) * 1 + 1 * (y 1).val = (y 1).val; omega
  rw [h]

/-- Window 5 never moves: its block at every point is its whole array. -/
theorem blk5 (c : Dev nD) (t : Fin cfg0.N) : (iblk m c 5 t : S250x250.Idx → EReal) = kronMid eye (m ((c : Thread nD τ).loc main_arg5)) := by
  rw [← launched5 m c]
  funext y
  show V m c main_v22 (((cfg0.win 5).blk t).view.emb y) = V m c main_v22 y
  have h : (((cfg0.win 5).blk t).view.emb y : S250x250.Idx) = y := by
    obtain ⟨e0, e1⟩ := idx5 t
    funext a; apply Fin.ext
    match a with
    | ⟨0, _⟩ => show win0_5.index t (0 : Fin 2) * 250 + 1 * (y 0).val = (y 0).val; omega
    | ⟨1, _⟩ => show win0_5.index t (1 : Fin 2) * 250 + 1 * (y 1).val = (y 1).val; omega
  rw [h]

/-- Window 6 never moves: its block at every point is its whole array. -/
theorem blk6 (c : Dev nD) (t : Fin cfg0.N) : (iblk m c 6 t : S250x1.Idx → EReal) = tileBias (m ((c : Thread nD τ).loc main_arg6)) := by
  rw [← launched6 m c]
  funext y
  show V m c main_v26 (((cfg0.win 6).blk t).view.emb y) = V m c main_v26 y
  have h : (((cfg0.win 6).blk t).view.emb y : S250x1.Idx) = y := by
    obtain ⟨e0, e1⟩ := idx6 t
    funext a; apply Fin.ext
    match a with
    | ⟨0, _⟩ => show win0_6.index t (0 : Fin 2) * 250 + 1 * (y 0).val = (y 0).val; omega
    | ⟨1, _⟩ => show win0_6.index t (1 : Fin 2) * 1 + 1 * (y 1).val = (y 1).val; omega
  rw [h]

/-- Window 7 never moves: its block at every point is its whole array. -/
theorem blk7 (c : Dev nD) (t : Fin cfg0.N) : (iblk m c 7 t : S250x250.Idx → EReal) = kronMid eye (m ((c : Thread nD τ).loc main_arg7)) := by
  rw [← launched7 m c]
  funext y
  show V m c main_v29 (((cfg0.win 7).blk t).view.emb y) = V m c main_v29 y
  have h : (((cfg0.win 7).blk t).view.emb y : S250x250.Idx) = y := by
    obtain ⟨e0, e1⟩ := idx7 t
    funext a; apply Fin.ext
    match a with
    | ⟨0, _⟩ => show win0_7.index t (0 : Fin 2) * 250 + 1 * (y 0).val = (y 0).val; omega
    | ⟨1, _⟩ => show win0_7.index t (1 : Fin 2) * 250 + 1 * (y 1).val = (y 1).val; omega
  rw [h]

/-- Window 8 never moves: its block at every point is its whole array. -/
theorem blk8 (c : Dev nD) (t : Fin cfg0.N) : (iblk m c 8 t : S250x1.Idx → EReal) = tileBias (m ((c : Thread nD τ).loc main_arg8)) := by
  rw [← launched8 m c]
  funext y
  show V m c main_v33 (((cfg0.win 8).blk t).view.emb y) = V m c main_v33 y
  have h : (((cfg0.win 8).blk t).view.emb y : S250x1.Idx) = y := by
    obtain ⟨e0, e1⟩ := idx8 t
    funext a; apply Fin.ext
    match a with
    | ⟨0, _⟩ => show win0_8.index t (0 : Fin 2) * 250 + 1 * (y 0).val = (y 0).val; omega
    | ⟨1, _⟩ => show win0_8.index t (1 : Fin 2) * 1 + 1 * (y 1).val = (y 1).val; omega
  rw [h]

/-- Window 9 never moves: its block at every point is its whole array. -/
theorem blk9 (c : Dev nD) (t : Fin cfg0.N) : (iblk m c 9 t : S250x250.Idx → EReal) = kronMid eye (m ((c : Thread nD τ).loc main_arg9)) := by
  rw [← launched9 m c]
  funext y
  show V m c main_v36 (((cfg0.win 9).blk t).view.emb y) = V m c main_v36 y
  have h : (((cfg0.win 9).blk t).view.emb y : S250x250.Idx) = y := by
    obtain ⟨e0, e1⟩ := idx9 t
    funext a; apply Fin.ext
    match a with
    | ⟨0, _⟩ => show win0_9.index t (0 : Fin 2) * 250 + 1 * (y 0).val = (y 0).val; omega
    | ⟨1, _⟩ => show win0_9.index t (1 : Fin 2) * 250 + 1 * (y 1).val = (y 1).val; omega
  rw [h]

/-- Window 10 never moves: its block at every point is its whole array. -/
theorem blk10 (c : Dev nD) (t : Fin cfg0.N) : (iblk m c 10 t : S250x1.Idx → EReal) = tileBias (m ((c : Thread nD τ).loc main_arg10)) := by
  rw [← launched10 m c]
  funext y
  show V m c main_v40 (((cfg0.win 10).blk t).view.emb y) = V m c main_v40 y
  have h : (((cfg0.win 10).blk t).view.emb y : S250x1.Idx) = y := by
    obtain ⟨e0, e1⟩ := idx10 t
    funext a; apply Fin.ext
    match a with
    | ⟨0, _⟩ => show win0_10.index t (0 : Fin 2) * 250 + 1 * (y 0).val = (y 0).val; omega
    | ⟨1, _⟩ => show win0_10.index t (1 : Fin 2) * 1 + 1 * (y 1).val = (y 1).val; omega
  rw [h]

/-- Window 11 never moves: its block at every point is its whole array. -/
theorem blk11 (c : Dev nD) (t : Fin cfg0.N) : (iblk m c 11 t : S250x250.Idx → EReal) = kronMid eye (m ((c : Thread nD τ).loc main_arg11)) := by
  rw [← launched11 m c]
  funext y
  show V m c main_v43 (((cfg0.win 11).blk t).view.emb y) = V m c main_v43 y
  have h : (((cfg0.win 11).blk t).view.emb y : S250x250.Idx) = y := by
    obtain ⟨e0, e1⟩ := idx11 t
    funext a; apply Fin.ext
    match a with
    | ⟨0, _⟩ => show win0_11.index t (0 : Fin 2) * 250 + 1 * (y 0).val = (y 0).val; omega
    | ⟨1, _⟩ => show win0_11.index t (1 : Fin 2) * 250 + 1 * (y 1).val = (y 1).val; omega
  rw [h]

/-- Window 12 never moves: its block at every point is its whole array. -/
theorem blk12 (c : Dev nD) (t : Fin cfg0.N) : (iblk m c 12 t : S250x1.Idx → EReal) = tileBias (m ((c : Thread nD τ).loc main_arg12)) := by
  rw [← launched12 m c]
  funext y
  show V m c main_v47 (((cfg0.win 12).blk t).view.emb y) = V m c main_v47 y
  have h : (((cfg0.win 12).blk t).view.emb y : S250x1.Idx) = y := by
    obtain ⟨e0, e1⟩ := idx12 t
    funext a; apply Fin.ext
    match a with
    | ⟨0, _⟩ => show win0_12.index t (0 : Fin 2) * 250 + 1 * (y 0).val = (y 0).val; omega
    | ⟨1, _⟩ => show win0_12.index t (1 : Fin 2) * 1 + 1 * (y 1).val = (y 1).val; omega
  rw [h]

/-- Window 13 never moves: its block at every point is its whole array. -/
theorem blk13 (c : Dev nD) (t : Fin cfg0.N) : (iblk m c 13 t : S250x250.Idx → EReal) = kronMid eye (m ((c : Thread nD τ).loc main_arg13)) := by
  rw [← launched13 m c]
  funext y
  show V m c main_v50 (((cfg0.win 13).blk t).view.emb y) = V m c main_v50 y
  have h : (((cfg0.win 13).blk t).view.emb y : S250x250.Idx) = y := by
    obtain ⟨e0, e1⟩ := idx13 t
    funext a; apply Fin.ext
    match a with
    | ⟨0, _⟩ => show win0_13.index t (0 : Fin 2) * 250 + 1 * (y 0).val = (y 0).val; omega
    | ⟨1, _⟩ => show win0_13.index t (1 : Fin 2) * 250 + 1 * (y 1).val = (y 1).val; omega
  rw [h]

/-- Window 14 never moves: its block at every point is its whole array. -/
theorem blk14 (c : Dev nD) (t : Fin cfg0.N) : (iblk m c 14 t : S250x1.Idx → EReal) = tileBias (m ((c : Thread nD τ).loc main_arg14)) := by
  rw [← launched14 m c]
  funext y
  show V m c main_v54 (((cfg0.win 14).blk t).view.emb y) = V m c main_v54 y
  have h : (((cfg0.win 14).blk t).view.emb y : S250x1.Idx) = y := by
    obtain ⟨e0, e1⟩ := idx14 t
    funext a; apply Fin.ext
    match a with
    | ⟨0, _⟩ => show win0_14.index t (0 : Fin 2) * 250 + 1 * (y 0).val = (y 0).val; omega
    | ⟨1, _⟩ => show win0_14.index t (1 : Fin 2) * 1 + 1 * (y 1).val = (y 1).val; omega
  rw [h]

/-- Window 15 never moves: its block at every point is its whole array. -/
theorem blk15 (c : Dev nD) (t : Fin cfg0.N) : (iblk m c 15 t : S250x250.Idx → EReal) = kronMid eye (m ((c : Thread nD τ).loc main_arg15)) := by
  rw [← launched15 m c]
  funext y
  show V m c main_v57 (((cfg0.win 15).blk t).view.emb y) = V m c main_v57 y
  have h : (((cfg0.win 15).blk t).view.emb y : S250x250.Idx) = y := by
    obtain ⟨e0, e1⟩ := idx15 t
    funext a; apply Fin.ext
    match a with
    | ⟨0, _⟩ => show win0_15.index t (0 : Fin 2) * 250 + 1 * (y 0).val = (y 0).val; omega
    | ⟨1, _⟩ => show win0_15.index t (1 : Fin 2) * 250 + 1 * (y 1).val = (y 1).val; omega
  rw [h]

/-- Window 16 never moves: its block at every point is its whole array. -/
theorem blk16 (c : Dev nD) (t : Fin cfg0.N) : (iblk m c 16 t : S250x1.Idx → EReal) = tileBias (m ((c : Thread nD τ).loc main_arg16)) := by
  rw [← launched16 m c]
  funext y
  show V m c main_v61 (((cfg0.win 16).blk t).view.emb y) = V m c main_v61 y
  have h : (((cfg0.win 16).blk t).view.emb y : S250x1.Idx) = y := by
    obtain ⟨e0, e1⟩ := idx16 t
    funext a; apply Fin.ext
    match a with
    | ⟨0, _⟩ => show win0_16.index t (0 : Fin 2) * 250 + 1 * (y 0).val = (y 0).val; omega
    | ⟨1, _⟩ => show win0_16.index t (1 : Fin 2) * 1 + 1 * (y 1).val = (y 1).val; omega
  rw [h]

/-- Window 17 never moves: its block at every point is its whole array. -/
theorem blk17 (c : Dev nD) (t : Fin cfg0.N) : (iblk m c 17 t : S1x1.Idx → EReal) = scale (m ((c : Thread nD τ).loc main_arg17)) := by
  rw [← launched17 m c]
  funext y
  show V m c main_v69 (((cfg0.win 17).blk t).view.emb y) = V m c main_v69 y
  have h : (((cfg0.win 17).blk t).view.emb y : S1x1.Idx) = y := by
    obtain ⟨e0, e1⟩ := idx17 t
    funext a; apply Fin.ext
    match a with
    | ⟨0, _⟩ => show win0_17.index t (0 : Fin 2) * 1 + 1 * (y 0).val = (y 0).val; omega
    | ⟨1, _⟩ => show win0_17.index t (1 : Fin 2) * 1 + 1 * (y 1).val = (y 1).val; omega
  rw [h]

/-- Window 18 never moves: its block at every point is its whole array. -/
theorem blk18 (c : Dev nD) (t : Fin cfg0.N) : (iblk m c 18 t : S25x250.Idx → EReal) = kronLast eye (m ((c : Thread nD τ).loc main_arg18)) := by
  rw [← launched18 m c]
  funext y
  show V m c main_v64 (((cfg0.win 18).blk t).view.emb y) = V m c main_v64 y
  have h : (((cfg0.win 18).blk t).view.emb y : S25x250.Idx) = y := by
    obtain ⟨e0, e1⟩ := idx18 t
    funext a; apply Fin.ext
    match a with
    | ⟨0, _⟩ => show win0_18.index t (0 : Fin 2) * 25 + 1 * (y 0).val = (y 0).val; omega
    | ⟨1, _⟩ => show win0_18.index t (1 : Fin 2) * 250 + 1 * (y 1).val = (y 1).val; omega
  rw [h]

/-- Window 19 never moves: its block at every point is its whole array. -/
theorem blk19 (c : Dev nD) (t : Fin cfg0.N) : (iblk m c 19 t : S25x1.Idx → EReal) = tileOut (m ((c : Thread nD τ).loc main_arg19)) := by
  rw [← launched19 m c]
  funext y
  show V m c main_v68 (((cfg0.win 19).blk t).view.emb y) = V m c main_v68 y
  have h : (((cfg0.win 19).blk t).view.emb y : S25x1.Idx) = y := by
    obtain ⟨e0, e1⟩ := idx19 t
    funext a; apply Fin.ext
    match a with
    | ⟨0, _⟩ => show win0_19.index t (0 : Fin 2) * 25 + 1 * (y 0).val = (y 0).val; omega
    | ⟨1, _⟩ => show win0_19.index t (1 : Fin 2) * 1 + 1 * (y 1).val = (y 1).val; omega
  rw [h]

/-! ## The launched blocks are the folded weights and biases -/

theorem kronFirst_is (W : FVec Ideal S1x10 .f32) : IsKronFirst (kronFirst eye W) W := fun g a j r hr => by
  rw [kronFirst_apply eye W g a j r hr, eye_apply]

theorem kronMid_is (W : FVec Ideal S10x10 .f32) : IsKronMid (kronMid eye W) W := fun g a j i r k hr hk => by
  rw [kronMid_apply eye W g a j i r k hr hk, eye_apply]

theorem kronLast_is (W : FVec Ideal S10x1 .f32) : IsKronLast (kronLast eye W) W := fun g a i k hk => by
  rw [kronLast_apply eye W g a i k hk, eye_apply]

theorem tileBias_is (B : FVec Ideal S10 .f32) : IsTiled (tileBias B) B := fun g j r hr => tileBias_apply B g j r hr

/-! ## What a grid point writes back -/

/-- WHAT POINT `t` WRITES BACK is tile `t` of the network over the samples. -/
theorem flushed_eq (c : Dev nD) (t : Fin cfg0.N) :
    (dats m 0 c).flushed 20 t = ((cfg0.win 20).blk t).view.read (Elt Ideal) (tiles m c) := by
  show (cfg0.win 20).cut (grid0.coords t) ((dats m 0 c).after 20 t) = _
  rw [after0_20]
  unfold out0_20
  rw [View.canon_unit_zero hz3]
  simp only [View.ld_unit_zero (S := S1x25x3200) hz3, View.ld_unit_zero (S := S1x1) hz2, View.ld_unit_zero (S := S250x25) hz2,
    View.ld_unit_zero (S := S250x1) hz2, View.ld_unit_zero (S := S250x250) hz2, View.ld_unit_zero (S := S25x250) hz2,
    View.ld_unit_zero (S := S25x1) hz2]
  funext j
  obtain ⟨q, g, cc, rfl⟩ : ∃ (q : Fin 1) (g : Fin 25) (cc : Fin 3200), j = ix3 q g cc := ⟨j 0, j 1, j 2, eq_ix3 j⟩
  obtain rfl : q = 0 := Subsingleton.elim _ _
  have ht : t.val < 50 := lt_of_lt_of_eq t.isLt N_0
  have hemb : (((cfg0.win 20).blk t).view.emb (ix3 (0 : Fin 1) g cc) : S50x25x3200.Idx) = ix3 (⟨t.val, ht⟩ : Fin 50) g cc := by
    obtain ⟨e0, e1, e2⟩ := idx20 t
    funext a; apply Fin.ext
    match a with
    | ⟨0, _⟩ => show win0_20.index t (0 : Fin 3) * 1 + 1 * 0 = t.val; omega
    | ⟨1, _⟩ => show win0_20.index t (1 : Fin 3) * 25 + 1 * g.val = g.val; omega
    | ⟨2, _⟩ => show win0_20.index t (2 : Fin 3) * 3200 + 1 * cc.val = cc.val; omega
  show k0_pay1 (F := Ideal) (k0_pay2 (iblk m c 17 t)) (k0_pay5 (k0_pay2 (iblk m c 17 t)) (k0_pay3 (iblk m c 0 t) (iblk m c 1 t) (iblk m c 17 t) (iblk m c 2 t) (iblk m c 3 t) (iblk m c 4 t) (iblk m c 5 t) (iblk m c 6 t)) (k0_pay4 (iblk m c 7 t)) (iblk m c 8 t) (iblk m c 9 t) (iblk m c 10 t) (iblk m c 11 t) (iblk m c 12 t) (iblk m c 13 t) (iblk m c 14 t)) (iblk m c 15 t) (iblk m c 16 t) (iblk m c 18 t) (iblk m c 19 t) (ix3 0 g cc)
    = tiles m c (((cfg0.win 20).blk t).view.emb (ix3 0 g cc))
  rw [hemb]
  refine (congrFun (pay_eq_tile (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)) (ix3 0 g cc)).trans ?_
  refine (shapeCast_apply _ shapeCasts_S25x3200_S1x25x3200 (ix3 0 g cc) (ix2 g cc) ?_).trans ?_
  · rw [Shape.rowMajor_val_two, Shape.rowMajor_val_three]
    show g.val * 3200 + cc.val = (0 * 25 + g.val) * 3200 + cc.val
    omega
  refine (tile_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    ((m ((c : Thread nD τ).loc main_arg17)) (ix1 0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg18)) (m ((c : Thread nD τ).loc main_arg19))
    (by rw [blk17 m c t]; exact scale_apply _)
    (by rw [blk2 m c t]; exact kronFirst_is _) (by rw [blk3 m c t]; exact kronFirst_is _) (by rw [blk4 m c t]; exact tileBias_is _)
    (by rw [blk5 m c t]; exact kronMid_is _) (by rw [blk6 m c t]; exact tileBias_is _)
    (by rw [blk7 m c t]; exact kronMid_is _) (by rw [blk8 m c t]; exact tileBias_is _)
    (by rw [blk9 m c t]; exact kronMid_is _) (by rw [blk10 m c t]; exact tileBias_is _)
    (by rw [blk11 m c t]; exact kronMid_is _) (by rw [blk12 m c t]; exact tileBias_is _)
    (by rw [blk13 m c t]; exact kronMid_is _) (by rw [blk14 m c t]; exact tileBias_is _)
    (by rw [blk15 m c t]; exact kronMid_is _) (by rw [blk16 m c t]; exact tileBias_is _)
    (by rw [blk18 m c t]; exact kronLast_is _)
    (fun g' => by rw [blk19 m c t]; exact tileOut_apply _ g') g cc).trans ?_
  unfold tiles netOf Cert.Mlp.net
  rw [blk0 m c t g cc (sampleOf (ix3 (⟨t.val, ht⟩ : Fin 50) g cc)) rfl, blk1 m c t g cc (sampleOf (ix3 (⟨t.val, ht⟩ : Fin 50) g cc)) rfl]

/-! ## The tiles cover the result array -/

/-- An index of the result array is in point `t`'s block iff each coordinate is in the block's range on its axis. -/
theorem mem_blk (t : Fin cfg0.N) (i : S50x25x3200.Idx) :
    i ∈ ((cfg0.win 20).blk t).view.set ↔ ∀ a : Fin 3, win0_20.index t a * S1x25x3200.size a ≤ (i a).val
      ∧ (i a).val < win0_20.index t a * S1x25x3200.size a + S1x25x3200.size a := by
  show i ∈ ((View.whole main_v70).slice (win0_20.rect t)).set ↔ _
  rw [View.set_slice_whole, Rect.mem_set_unit]
  exact Iff.rfl

/-- Index `i` lies in the tile of the point `t = i₀`. -/
theorem cover (i : S50x25x3200.Idx) :
    ∃ t : Fin cfg0.N, (cfg0.win 20).flush t = true ∧ i ∈ ((cfg0.win 20).blk t).view.set := by
  have h0 : (i 0).val < 50 := (i 0).isLt
  have h1 : (i 1).val < 25 := (i 1).isLt
  have h2 : (i 2).val < 3200 := (i 2).isLt
  obtain ⟨t, ht⟩ : ∃ t : Fin cfg0.N, t.val = (i 0).val := ⟨⟨(i 0).val, lt_of_lt_of_eq h0 N_0.symm⟩, rfl⟩
  refine ⟨t, flush0_20 t, ?_⟩
  rw [mem_blk]
  obtain ⟨e0, e1, e2⟩ := idx20 t
  intro a
  match a with
  | ⟨0, _⟩ =>
    show win0_20.index t (0 : Fin 3) * 1 ≤ (i 0).val ∧ (i 0).val < win0_20.index t (0 : Fin 3) * 1 + 1
    omega
  | ⟨1, _⟩ =>
    show win0_20.index t (1 : Fin 3) * 25 ≤ (i 1).val ∧ (i 1).val < win0_20.index t (1 : Fin 3) * 25 + 25
    omega
  | ⟨2, _⟩ =>
    show win0_20.index t (2 : Fin 3) * 3200 ≤ (i 2).val ∧ (i 2).val < win0_20.index t (2 : Fin 3) * 3200 + 3200
    omega

/-- THE RESULT ARRAY after the region: the network at the sample of every index. -/
theorem final (c : Dev nD) : (dats m 0 c).arrAt 20 cfg0.N = tiles m c :=
  (dats m 0 c).arrAt_eq_of_cover 20 (tiles m c) (fun t _ => flushed_eq m c t) cover

end Cert.KernelIdeal.Net

end
-- ==== Proof.KernelRun.lean ====
/-
  The kernel program's run, read: its result column holds the network at every sample.

  After the region the result array `[50, 25, 3200]` holds the network at the sample of every index
  (`Net.final`). The one host line after the region views it as a column `[4000000, 1]`: row `n` reads the index
  with row-major position `n`, namely `(n / 80000, n / 3200 mod 25, n mod 3200)`, whose sample is `n` again.
-/
import proofs.«177182_j41609643164201_2_alg».proof.Proof.KernelValue

set_option maxRecDepth 16384

noncomputable section

namespace Cert.KernelIdeal.Net

open Cert.KernelIdeal Cert.KernelIdeal.Gen Cert.KernelIdeal.Glue Cert.KernelIdeal.Body Idealize.ShloMosaic Idealize.ShloMosaic.TcCoe
  Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-- The result array viewed as a column: row `n` is the network at sample `n`. -/
theorem column_eq (c : Dev nD) (n : Fin 4000000) :
    shapeCast S4000000x1 (tiles m c) shapeCasts_S50x25x3200_S4000000x1 (ix2 n 0) = netOf m c n := by
  have hn : n.val < 4000000 := n.isLt
  refine (shapeCast_apply (tiles m c) shapeCasts_S50x25x3200_S4000000x1 (ix2 n 0)
    (ix3 (⟨n.val / 80000, by omega⟩ : Fin 50) (⟨n.val / 3200 % 25, by omega⟩ : Fin 25) (⟨n.val % 3200, by omega⟩ : Fin 3200)) ?_).trans ?_
  · rw [Shape.rowMajor_val_three, Shape.rowMajor_val_two]
    show (n.val / 80000 * 25 + n.val / 3200 % 25) * 3200 + n.val % 3200 = n.val * 1 + 0
    omega
  · show netOf m c (sampleOf _) = netOf m c n
    refine congrArg (netOf m c) (Fin.ext ?_)
    show (n.val / 80000 * 25 + n.val / 3200 % 25) * 3200 + n.val % 3200 = n.val
    omega

/-- What the host line after the region leaves in the program's result buffer. -/
theorem result_eq (c : Dev nD) :
    Pipeline.afterTail₀ cfgs (dats m) 0 (V0 m) [hostOps1] c main_v71 = fun i => netOf m c (i 0) := by
  unfold Pipeline.afterTail₀
  show StableHlo.after hostOps1 _ (Proc.devRef .tc main_v71) = _
  after_results
  have hw : Pipeline.withArrays (cfgs 0).spec c (V0 m c) (fun w => (dats m 0 c).arrAt w (cfgs 0).N) (Proc.devRef .tc main_v70)
      = tiles m c :=
    (Pipeline.withArrays_arr spec0 launch0.win.arr_inj c _ _ 20).trans (final m c)
  funext (i : S4000000x1.Idx)
  obtain ⟨n, rfl⟩ : ∃ n : Fin 4000000, i = ix2 n (0 : Fin 1) :=
    ⟨i 0, (eq_ix2 (n0 := 4000000) (n1 := 1) i).trans (congrArg (ix2 (n0 := 4000000) (n1 := 1) (i 0)) (Subsingleton.elim _ _))⟩
  show shapeCast S4000000x1 (Pipeline.withArrays (cfgs 0).spec c (V0 m c) (fun w => (dats m 0 c).arrAt w (cfgs 0).N)
    (Proc.devRef .tc main_v70)) shapeCasts_S50x25x3200_S4000000x1 (ix2 n 0) = netOf m c n
  rw [hw]
  exact column_eq m c n

/-- THE RUN, READ: every weakly fair execution of the kernel program ends with its result column at the network of
    the argument arrays, sample by sample, and with the argument arrays as they were (no window writes one back, and
    no host line writes one). -/
theorem run : θ_run defs (onTc (τ := τ) (main (F := Ideal))) ⟨m, fun _ => 0, ρ⟩ fun r => ∀ c : Dev nD,
      r.2.mem ((c : Thread nD τ).loc main_v71) = (fun i => netOf m c (i 0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19) :=
  (θ_run defs _ _).mono (fun r h c => ⟨
      ((h c).2 main_v71 (Pipeline.mem_restRefs_of main_v71 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c),
      ((h c).2 main_arg13 (Pipeline.mem_restRefs_of main_arg13 (by decide) (by decide))).trans (W_main_arg13 m (dats m) c),
      ((h c).2 main_arg14 (Pipeline.mem_restRefs_of main_arg14 (by decide) (by decide))).trans (W_main_arg14 m (dats m) c),
      ((h c).2 main_arg15 (Pipeline.mem_restRefs_of main_arg15 (by decide) (by decide))).trans (W_main_arg15 m (dats m) c),
      ((h c).2 main_arg16 (Pipeline.mem_restRefs_of main_arg16 (by decide) (by decide))).trans (W_main_arg16 m (dats m) c),
      ((h c).2 main_arg17 (Pipeline.mem_restRefs_of main_arg17 (by decide) (by decide))).trans (W_main_arg17 m (dats m) c),
      ((h c).2 main_arg18 (Pipeline.mem_restRefs_of main_arg18 (by decide) (by decide))).trans (W_main_arg18 m (dats m) c),
      ((h c).2 main_arg19 (Pipeline.mem_restRefs_of main_arg19 (by decide) (by decide))).trans (W_main_arg19 m (dats m) c)⟩)
    (run_main m ρ)

end Cert.KernelIdeal.Net

end
-- ==== Proof.RefIsNet.lean ====
/-
  The reference program, read one sample at a time, is the eight-layer network.

  The reference applies the same small network to each of four million samples (rows). Its 62 array operations fall
  into a first layer (two products of a column `[4000000, 1]` with a row `[1, 10]`, contracted over an axis of size
  one, a bias and a scale, then `tanh`), six hidden blocks of eight operations each (a product with a `[10, 10]`
  weight contracted over the ten features, a bias broadcast along the rows, a scale broadcast from one scalar, then
  `tanh`), and an output product with a `[10, 1]` weight plus a one-element bias.

  Every operation is read at a row `n` and a column `j`. A broadcast reads its operand at an index that forgets the
  row (bias) or both coordinates (scale); a product reads row `n` of its left operand against column `j` of its right
  operand. Hence the value at `(n, j)` after a block depends only on the ten values at `(n, 0 … 9)` before it, and it
  is exactly one layer of `Cert.Mlp` applied to them. Chaining the eight layers gives `Cert.Mlp.net` at sample `n`.
  No law of arithmetic is used: both sides are the same expression once the indices are identified.
-/
import proofs.«177182_j41609643164201_2_alg».proof.Proof.Gen.ReferenceIdeal.Read
import proofs.«177182_j41609643164201_2_alg».proof.Proof.MlpSpec

noncomputable section

namespace Cert.ReferenceIdeal.RefValue

open Cert.ReferenceIdeal Cert.ReferenceIdeal.Gen Cert.ReferenceIdeal.Read Idealize.ShloMosaic Idealize.ShloMosaic.ValueIdx

/-! ## Indices -/

/-- Two index functions on a literal rank agree when they agree at each axis. -/
local macro "idx_eq" : tactic =>
  `(tactic| (funext a; first
      | (match a with | ⟨0, _⟩ => rfl | ⟨1, _⟩ => rfl)
      | (match a with | ⟨0, _⟩ => rfl)))

/-- A one-element vector has the single index `0`. -/
theorem idx1_zero (q : S1.Idx) : q = ix1 (0 : Fin 1) :=
  (eq_ix1 (n := 1) q).trans (congrArg (ix1 (n := 1)) (Subsingleton.elim _ _))

/-- An index into a column `[4000000, 1]` is its row and the column `0`. -/
theorem idx_col (i : S4000000x1.Idx) : i = ix2 (i 0) (0 : Fin 1) :=
  (eq_ix2 (n0 := 4000000) (n1 := 1) i).trans
    (congrArg (ix2 (n0 := 4000000) (n1 := 1) (i 0)) (Subsingleton.elim _ _))

/-! ## One layer from its reads

  Each lemma takes the indices at which a layer's operations read their operands as variables, together with what
  those indices are, and concludes that the layer's arithmetic is the corresponding layer of `Cert.Mlp`. -/

/-- The first layer: scale `a`, the two inputs `u`, `v` at row `n`, the two weight rows at column `j`, the bias at `j`. -/
theorem first_read (a : (⟨S1, .f32⟩ : BufTy).Contents (Elt Ideal))
    (u v : (⟨S4000000x1, .f32⟩ : BufTy).Contents (Elt Ideal)) (W1 W2 : (⟨S1x10, .f32⟩ : BufTy).Contents (Elt Ideal))
    (B : (⟨S10, .f32⟩ : BufTy).Contents (Elt Ideal)) (n : Fin 4000000) (j : Fin 10)
    (I1 : S1.Idx) (I2 : S10.Idx) (Iu Iv : S4000000x1.Idx) (Ju Jv : S1x10.Idx)
    (h1 : I1 = ix1 (0 : Fin 1)) (h2 : I2 = ix1 j) (hu : Iu = ix2 n (0 : Fin 1)) (hv : Iv = ix2 n (0 : Fin 1))
    (ju : Ju = ix2 (0 : Fin 1) j) (jv : Jv = ix2 (0 : Fin 1) j) :
    Ideal.tanh (a I1 * (u Iu * W1 Ju + v Iv * W2 Jv + B I2))
      = Cert.Mlp.first (a (ix1 0)) (u (ix2 n 0)) (v (ix2 n 0)) W1 W2 B j := by
  subst h1 h2 hu hv ju jv
  rfl

/-- A hidden layer: the previous stage `V` is read along row `n`, where it is `f`; the weight down column `j`. -/
theorem hidden_read (a : (⟨S1, .f32⟩ : BufTy).Contents (Elt Ideal)) (W : (⟨S10x10, .f32⟩ : BufTy).Contents (Elt Ideal))
    (B : (⟨S10, .f32⟩ : BufTy).Contents (Elt Ideal)) (V : (⟨S4000000x10, .f32⟩ : BufTy).Contents (Elt Ideal))
    (f : Fin 10 → EReal) (n : Fin 4000000) (j : Fin 10)
    (I1 : S1.Idx) (I2 : S10.Idx) (I3 : Fin 10 → S4000000x10.Idx) (I4 : Fin 10 → S10x10.Idx)
    (h1 : I1 = ix1 (0 : Fin 1)) (h2 : I2 = ix1 j) (h3 : ∀ k, I3 k = ix2 n k) (h4 : ∀ k, I4 k = ix2 k j)
    (hV : ∀ k, V (ix2 n k) = f k) :
    Ideal.tanh (a I1 * ((∑ k : Fin 10, V (I3 k) * W (I4 k)) + B I2))
      = Cert.Mlp.hidden (a (ix1 0)) W B f j := by
  subst h1 h2
  obtain rfl : I3 = fun k => ix2 n k := funext h3
  obtain rfl : I4 = fun k => ix2 k j := funext h4
  obtain rfl : (fun k => V (ix2 n k)) = f := funext hV
  rfl

/-- The output: the last hidden stage `V` along row `n`, where it is `f`; the weight column; the one-element bias. -/
theorem out_read (W : (⟨S10x1, .f32⟩ : BufTy).Contents (Elt Ideal)) (B : (⟨S1, .f32⟩ : BufTy).Contents (Elt Ideal))
    (V : (⟨S4000000x10, .f32⟩ : BufTy).Contents (Elt Ideal)) (f : Fin 10 → EReal) (n : Fin 4000000)
    (I2 : S1.Idx) (I3 : Fin 10 → S4000000x10.Idx) (I4 : Fin 10 → S10x1.Idx)
    (h2 : I2 = ix1 (0 : Fin 1)) (h3 : ∀ k, I3 k = ix2 n k) (h4 : ∀ k, I4 k = ix2 k (0 : Fin 1))
    (hV : ∀ k, V (ix2 n k) = f k) :
    (∑ k : Fin 10, V (I3 k) * W (I4 k)) + B I2 = Cert.Mlp.out W B f := by
  subst h2
  obtain rfl : I3 = fun k => ix2 n k := funext h3
  obtain rfl : I4 = fun k => ix2 k (0 : Fin 1) := funext h4
  obtain rfl : (fun k => V (ix2 n k)) = f := funext hV
  rfl

/-! ## The stages, layer by layer -/

section Stages

variable (x0 x1 : (⟨S4000000x1, .f32⟩ : BufTy).Contents (Elt Ideal)) (x2 x3 : (⟨S1x10, .f32⟩ : BufTy).Contents (Elt Ideal))
  (x4 : (⟨S10, .f32⟩ : BufTy).Contents (Elt Ideal)) (x5 : (⟨S10x10, .f32⟩ : BufTy).Contents (Elt Ideal))
  (x6 : (⟨S10, .f32⟩ : BufTy).Contents (Elt Ideal)) (x7 : (⟨S10x10, .f32⟩ : BufTy).Contents (Elt Ideal))
  (x8 : (⟨S10, .f32⟩ : BufTy).Contents (Elt Ideal)) (x9 : (⟨S10x10, .f32⟩ : BufTy).Contents (Elt Ideal))
  (x10 : (⟨S10, .f32⟩ : BufTy).Contents (Elt Ideal)) (x11 : (⟨S10x10, .f32⟩ : BufTy).Contents (Elt Ideal))
  (x12 : (⟨S10, .f32⟩ : BufTy).Contents (Elt Ideal)) (x13 : (⟨S10x10, .f32⟩ : BufTy).Contents (Elt Ideal))
  (x14 : (⟨S10, .f32⟩ : BufTy).Contents (Elt Ideal)) (x15 : (⟨S10x10, .f32⟩ : BufTy).Contents (Elt Ideal))
  (x16 : (⟨S10, .f32⟩ : BufTy).Contents (Elt Ideal)) (x17 : (⟨S1, .f32⟩ : BufTy).Contents (Elt Ideal))
  (x18 : (⟨S10x1, .f32⟩ : BufTy).Contents (Elt Ideal)) (x19 : (⟨S1, .f32⟩ : BufTy).Contents (Elt Ideal))

/-- The ten activations of sample `n` after the first layer. -/
def act1 (n : Fin 4000000) : Fin 10 → EReal :=
  Cert.Mlp.first (x17 (ix1 0)) (x0 (ix2 n 0)) (x1 (ix2 n 0)) x2 x3 x4

/-- Stage 9 (the `tanh` closing the first layer) read at row `n`, column `j`. The two products contract an axis of
    size one, so each sum has the single term `k = 0`. -/
theorem stage9 (n : Fin 4000000) (j : Fin 10) :
    val_main_v9 (F := Ideal) x0 x1 x2 x3 x4 x17 (ix2 n j) = act1 x0 x1 x2 x3 x4 x17 n j := by
  rw [val_main_v9_apply, val_main_v8_apply, val_main_v7_apply, val_main_v6_apply, val_main_v5_apply,
    val_main_v4_apply, val_main_v3_apply, val_main_v2_apply, val_main_v1_apply, val_main_v0_apply,
    Fin.sum_univ_one, Fin.sum_univ_one]
  simp only [Ideal.hostUnary_tanh_def, Ideal.mulf_def, Ideal.addf_def]
  exact first_read x17 x0 x1 x2 x3 x4 n j _ _ _ _ _ _ (by idx_eq) (by idx_eq) (by idx_eq) (by idx_eq)
    (by idx_eq) (by idx_eq)

/-- The ten activations of sample `n` after hidden layer 1 (layer 2 of the network). -/
def act2 (n : Fin 4000000) : Fin 10 → EReal :=
  Cert.Mlp.hidden (x17 (ix1 0)) x5 x6 (act1 x0 x1 x2 x3 x4 x17 n)

/-- Stage 17 (the `tanh` closing hidden layer 1) read at row `n`, column `j`. -/
theorem stage17 (n : Fin 4000000) (j : Fin 10) :
    val_main_v17 (F := Ideal) x0 x1 x2 x3 x4 x5 x6 x17 (ix2 n j) = act2 x0 x1 x2 x3 x4 x5 x6 x17 n j := by
  rw [val_main_v17_apply, val_main_v16_apply, val_main_v15_apply, val_main_v14_apply,
    val_main_v13_apply, val_main_v12_apply, val_main_v11_apply, val_main_v10_apply]
  simp only [Ideal.hostUnary_tanh_def, Ideal.mulf_def, Ideal.addf_def]
  exact hidden_read x17 x5 x6 _ _ n j _ _ _ _ (by idx_eq) (by idx_eq) (fun _ => by idx_eq) (fun _ => by idx_eq)
    (stage9 x0 x1 x2 x3 x4 x17 n)

/-- The ten activations of sample `n` after hidden layer 2 (layer 3 of the network). -/
def act3 (n : Fin 4000000) : Fin 10 → EReal :=
  Cert.Mlp.hidden (x17 (ix1 0)) x7 x8 (act2 x0 x1 x2 x3 x4 x5 x6 x17 n)

/-- Stage 25 (the `tanh` closing hidden layer 2) read at row `n`, column `j`. -/
theorem stage25 (n : Fin 4000000) (j : Fin 10) :
    val_main_v25 (F := Ideal) x0 x1 x2 x3 x4 x5 x6 x7 x8 x17 (ix2 n j) = act3 x0 x1 x2 x3 x4 x5 x6 x7 x8 x17 n j := by
  rw [val_main_v25_apply, val_main_v24_apply, val_main_v23_apply, val_main_v22_apply,
    val_main_v21_apply, val_main_v20_apply, val_main_v19_apply, val_main_v18_apply]
  simp only [Ideal.hostUnary_tanh_def, Ideal.mulf_def, Ideal.addf_def]
  exact hidden_read x17 x7 x8 _ _ n j _ _ _ _ (by idx_eq) (by idx_eq) (fun _ => by idx_eq) (fun _ => by idx_eq)
    (stage17 x0 x1 x2 x3 x4 x5 x6 x17 n)

/-- The ten activations of sample `n` after hidden layer 3 (layer 4 of the network). -/
def act4 (n : Fin 4000000) : Fin 10 → EReal :=
  Cert.Mlp.hidden (x17 (ix1 0)) x9 x10 (act3 x0 x1 x2 x3 x4 x5 x6 x7 x8 x17 n)

/-- Stage 33 (the `tanh` closing hidden layer 3) read at row `n`, column `j`. -/
theorem stage33 (n : Fin 4000000) (j : Fin 10) :
    val_main_v33 (F := Ideal) x0 x1 x2 x3 x4 x5 x6 x7 x8 x9 x10 x17 (ix2 n j) = act4 x0 x1 x2 x3 x4 x5 x6 x7 x8 x9 x10 x17 n j := by
  rw [val_main_v33_apply, val_main_v32_apply, val_main_v31_apply, val_main_v30_apply,
    val_main_v29_apply, val_main_v28_apply, val_main_v27_apply, val_main_v26_apply]
  simp only [Ideal.hostUnary_tanh_def, Ideal.mulf_def, Ideal.addf_def]
  exact hidden_read x17 x9 x10 _ _ n j _ _ _ _ (by idx_eq) (by idx_eq) (fun _ => by idx_eq) (fun _ => by idx_eq)
    (stage25 x0 x1 x2 x3 x4 x5 x6 x7 x8 x17 n)

/-- The ten activations of sample `n` after hidden layer 4 (layer 5 of the network). -/
def act5 (n : Fin 4000000) : Fin 10 → EReal :=
  Cert.Mlp.hidden (x17 (ix1 0)) x11 x12 (act4 x0 x1 x2 x3 x4 x5 x6 x7 x8 x9 x10 x17 n)

/-- Stage 41 (the `tanh` closing hidden layer 4) read at row `n`, column `j`. -/
theorem stage41 (n : Fin 4000000) (j : Fin 10) :
    val_main_v41 (F := Ideal) x0 x1 x2 x3 x4 x5 x6 x7 x8 x9 x10 x11 x12 x17 (ix2 n j) = act5 x0 x1 x2 x3 x4 x5 x6 x7 x8 x9 x10 x11 x12 x17 n j := by
  rw [val_main_v41_apply, val_main_v40_apply, val_main_v39_apply, val_main_v38_apply,
    val_main_v37_apply, val_main_v36_apply, val_main_v35_apply, val_main_v34_apply]
  simp only [Ideal.hostUnary_tanh_def, Ideal.mulf_def, Ideal.addf_def]
  exact hidden_read x17 x11 x12 _ _ n j _ _ _ _ (by idx_eq) (by idx_eq) (fun _ => by idx_eq) (fun _ => by idx_eq)
    (stage33 x0 x1 x2 x3 x4 x5 x6 x7 x8 x9 x10 x17 n)

/-- The ten activations of sample `n` after hidden layer 5 (layer 6 of the network). -/
def act6 (n : Fin 4000000) : Fin 10 → EReal :=
  Cert.Mlp.hidden (x17 (ix1 0)) x13 x14 (act5 x0 x1 x2 x3 x4 x5 x6 x7 x8 x9 x10 x11 x12 x17 n)

/-- Stage 49 (the `tanh` closing hidden layer 5) read at row `n`, column `j`. -/
theorem stage49 (n : Fin 4000000) (j : Fin 10) :
    val_main_v49 (F := Ideal) x0 x1 x2 x3 x4 x5 x6 x7 x8 x9 x10 x11 x12 x13 x14 x17 (ix2 n j) = act6 x0 x1 x2 x3 x4 x5 x6 x7 x8 x9 x10 x11 x12 x13 x14 x17 n j := by
  rw [val_main_v49_apply, val_main_v48_apply, val_main_v47_apply, val_main_v46_apply,
    val_main_v45_apply, val_main_v44_apply, val_main_v43_apply, val_main_v42_apply]
  simp only [Ideal.hostUnary_tanh_def, Ideal.mulf_def, Ideal.addf_def]
  exact hidden_read x17 x13 x14 _ _ n j _ _ _ _ (by idx_eq) (by idx_eq) (fun _ => by idx_eq) (fun _ => by idx_eq)
    (stage41 x0 x1 x2 x3 x4 x5 x6 x7 x8 x9 x10 x11 x12 x17 n)

/-- The ten activations of sample `n` after hidden layer 6 (layer 7 of the network). -/
def act7 (n : Fin 4000000) : Fin 10 → EReal :=
  Cert.Mlp.hidden (x17 (ix1 0)) x15 x16 (act6 x0 x1 x2 x3 x4 x5 x6 x7 x8 x9 x10 x11 x12 x13 x14 x17 n)

/-- Stage 57 (the `tanh` closing hidden layer 6) read at row `n`, column `j`. -/
theorem stage57 (n : Fin 4000000) (j : Fin 10) :
    val_main_v57 (F := Ideal) x0 x1 x2 x3 x4 x5 x6 x7 x8 x9 x10 x11 x12 x13 x14 x15 x16 x17 (ix2 n j) = act7 x0 x1 x2 x3 x4 x5 x6 x7 x8 x9 x10 x11 x12 x13 x14 x15 x16 x17 n j := by
  rw [val_main_v57_apply, val_main_v56_apply, val_main_v55_apply, val_main_v54_apply,
    val_main_v53_apply, val_main_v52_apply, val_main_v51_apply, val_main_v50_apply]
  simp only [Ideal.hostUnary_tanh_def, Ideal.mulf_def, Ideal.addf_def]
  exact hidden_read x17 x15 x16 _ _ n j _ _ _ _ (by idx_eq) (by idx_eq) (fun _ => by idx_eq) (fun _ => by idx_eq)
    (stage49 x0 x1 x2 x3 x4 x5 x6 x7 x8 x9 x10 x11 x12 x13 x14 x17 n)

/-- Stage 61 (the output) read at row `n` of its one column. -/
theorem stage61 (n : Fin 4000000) :
    val_main_v61 (F := Ideal) x0 x1 x2 x3 x4 x5 x6 x7 x8 x9 x10 x11 x12 x13 x14 x15 x16 x17 x18 x19 (ix2 n (0 : Fin 1))
      = Cert.Mlp.out x18 x19 (act7 x0 x1 x2 x3 x4 x5 x6 x7 x8 x9 x10 x11 x12 x13 x14 x15 x16 x17 n) := by
  rw [val_main_v61_apply, val_main_v60_apply, val_main_v59_apply, val_main_v58_apply]
  simp only [Ideal.addf_def]
  exact out_read x18 x19 _ _ n _ _ _ (by idx_eq) (fun _ => by idx_eq) (fun _ => by idx_eq)
    (stage57 x0 x1 x2 x3 x4 x5 x6 x7 x8 x9 x10 x11 x12 x13 x14 x15 x16 x17 n)

end Stages

/-! ## The reference is the network -/

/-- The reference's result, as an array of four million rows and one column, is the network of `Cert.Mlp` at each row. -/
theorem ref_eq_net (x0 x1 : (⟨S4000000x1, .f32⟩ : BufTy).Contents (Elt Ideal)) (x2 x3 : (⟨S1x10, .f32⟩ : BufTy).Contents (Elt Ideal)) (x4 : (⟨S10, .f32⟩ : BufTy).Contents (Elt Ideal)) (x5 : (⟨S10x10, .f32⟩ : BufTy).Contents (Elt Ideal)) (x6 : (⟨S10, .f32⟩ : BufTy).Contents (Elt Ideal)) (x7 : (⟨S10x10, .f32⟩ : BufTy).Contents (Elt Ideal)) (x8 : (⟨S10, .f32⟩ : BufTy).Contents (Elt Ideal)) (x9 : (⟨S10x10, .f32⟩ : BufTy).Contents (Elt Ideal)) (x10 : (⟨S10, .f32⟩ : BufTy).Contents (Elt Ideal)) (x11 : (⟨S10x10, .f32⟩ : BufTy).Contents (Elt Ideal)) (x12 : (⟨S10, .f32⟩ : BufTy).Contents (Elt Ideal)) (x13 : (⟨S10x10, .f32⟩ : BufTy).Contents (Elt Ideal)) (x14 : (⟨S10, .f32⟩ : BufTy).Contents (Elt Ideal)) (x15 : (⟨S10x10, .f32⟩ : BufTy).Contents (Elt Ideal)) (x16 : (⟨S10, .f32⟩ : BufTy).Contents (Elt Ideal)) (x17 : (⟨S1, .f32⟩ : BufTy).Contents (Elt Ideal)) (x18 : (⟨S10x1, .f32⟩ : BufTy).Contents (Elt Ideal)) (x19 : (⟨S1, .f32⟩ : BufTy).Contents (Elt Ideal)) :
    Cert.ReferenceIdeal.Read.val_main_v61 (F := Ideal) x0 x1 x2 x3 x4 x5 x6 x7 x8 x9 x10 x11 x12 x13 x14 x15 x16 x17 x18 x19
      = fun i => Cert.Mlp.net x0 x1 x2 x3 x4 x5 x6 x7 x8 x9 x10 x11 x12 x13 x14 x15 x16 x17 x18 x19 (i 0) := by
  funext i
  obtain ⟨n, rfl⟩ : ∃ n : Fin 4000000, i = ix2 n (0 : Fin 1) := ⟨i 0, idx_col i⟩
  exact stage61 x0 x1 x2 x3 x4 x5 x6 x7 x8 x9 x10 x11 x12 x13 x14 x15 x16 x17 x18 x19 n

end Cert.ReferenceIdeal.RefValue

end
-- ==== Proof.lean ====
/-
  A dense network on four million samples, computed twenty-five samples at a time.

  The reference applies to every sample (a pair of scalars) a first layer `tanh (a · (x₁ · W₁ + x₂ · W₂ + B₁))`, six
  hidden layers `tanh (a · (L · W + B))` on ten features, and a linear output. The kernel program views the two
  input columns as fifty tiles of twenty-five rows of 3200 samples, replaces every weight `W` by `I₂₅ ⊗ Wᵀ` and every
  bias by its twenty-five-fold repetition, and runs the same eight layers on `[250, 3200]` activations, one tile per
  grid point; the result tiles are viewed as one column again.

  On extended reals with exact operations the two agree sample by sample. A row of `I₂₅ ⊗ Wᵀ` has `δ(g, a) · W (i, j)`
  at column `(a, i)`, so its product with a column of activations is a sum in which every group other than `g`
  contributes `(0 · w) · x = 0` and group `g` contributes `(1 · w) · x`: what is left is the ten-term sum of the dense
  layer for the one sample in group `g`. Only `0 · x = 0`, `1 · x = x` and the commutativity of `·` are used — no
  distributivity — so the inputs' finiteness is never needed. A change of float format is the identity here, and the
  kernel's `tanh` and the host's are one function. The reshapes on both ends keep row-major positions, so tile
  `t`, row `g`, column `c` is sample `(t · 25 + g) · 3200 + c` going in and coming out.

  The frames of the two kernel programs are the generated ones; the reference's frame is its generated run with the
  result dropped; the idealization rewrote nothing, so `preserves` is trivial; `algebraic` sets the kernel's run,
  read as the network at every sample (Proof/KernelRun.lean), beside the reference's generated run, read as the same
  network (Proof/RefIsNet.lean).
-/
import proofs.«177182_j41609643164201_2_alg».proof.Defs
import proofs.«177182_j41609643164201_2_alg».proof.Proof.Gen.Kernel
import proofs.«177182_j41609643164201_2_alg».proof.Proof.Gen.Kernel.Skeleton
import proofs.«177182_j41609643164201_2_alg».proof.Proof.Gen.Kernel.Launch
import proofs.«177182_j41609643164201_2_alg».proof.Proof.Gen.Kernel.Points
import proofs.«177182_j41609643164201_2_alg».proof.Proof.Gen.Kernel.Frame
import proofs.«177182_j41609643164201_2_alg».proof.Proof.Gen.KernelIdeal
import proofs.«177182_j41609643164201_2_alg».proof.Proof.Gen.KernelIdeal.Skeleton
import proofs.«177182_j41609643164201_2_alg».proof.Proof.Gen.KernelIdeal.Launch
import proofs.«177182_j41609643164201_2_alg».proof.Proof.Gen.KernelIdeal.Points
import proofs.«177182_j41609643164201_2_alg».proof.Proof.Gen.KernelIdeal.Frame
import proofs.«177182_j41609643164201_2_alg».proof.Proof.Gen.ReferenceIdeal
import proofs.«177182_j41609643164201_2_alg».proof.Proof.Gen.ReferenceIdeal.Run
import proofs.«177182_j41609643164201_2_alg».proof.Proof.Gen.ReferenceIdeal.Read
import proofs.«177182_j41609643164201_2_alg».proof.Proof.Gen.Pre_finite_inputs
import proofs.«177182_j41609643164201_2_alg».proof.Proof.KernelRun
import proofs.«177182_j41609643164201_2_alg».proof.Proof.RefIsNet
import Idealize.ShloMosaic.Adequacy
import Idealize.ShloMosaic.Init

noncomputable section

namespace Cert.Proof

open Idealize.ShloMosaic Idealize.SL.Sem

/-- The word-level kernel program runs and leaves its arguments as they were. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the network at every sample of the (agreeing) arguments. -/
theorem algebraic : Cert.algebraic_KernelIdeal_ReferenceIdeal := by
  intro m ρ m' ρ' _ hagree
  refine ⟨fun c => fun i => Cert.KernelIdeal.Net.netOf m c (i 0), Cert.KernelIdeal.Net.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13, a14, a15, a16, a17, a18, a19⟩ := hagree c
  rw [Cert.ReferenceIdeal.Read.val_main_v61_eq, Cert.ReferenceIdeal.RefValue.ref_eq_net,
    a0, a1, a2, a3, a4, a5, a6, a7, a8, a9, a10, a11, a12, a13, a14, a15, a16, a17, a18, a19]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
